-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024x64x512 : Shape := ⟨3, ![1024, 64, 512]⟩
abbrev S512x512 : Shape := ⟨2, ![512, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x64x512 : S_.BroadcastsInDim S1024x64x512 (![] : Fin 0 → Fin S1024x64x512.rank)
  reducesTo_S1024x64x512_S_d0_1_2 : S1024x64x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S512x512 .f32) (main_arg13 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1024x512 .f32) (main_arg1 : FVec F S1024x64x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x64x512 .f32 := Host.absf main_arg1
  let main_cst_0 : FVec F S_ .f32 := constant S_ .f32 0x7F800000#32
  let main_v5 : FVec F S1024x64x512 .f32 := broadcastInDim S1024x64x512 ![] bcast_S_S1024x64x512 main_cst_0
  let main_v6 : IVec S1024x64x512 1 := cmpf .olt main_v4 main_v5
  let main_c_1 : IVec S_ 1 := constantI S_ 1 1#1
  let main_v7 : IVec S_ 1 := (fun x v => Host.reduce IntOp.andi x v reducesTo_S1024x64x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Kernel.lean ====
abbrev S1024x512 : Shape := ⟨2, ![1024, 512]⟩
abbrev S1024x64x512 : Shape := ⟨3, ![1024, 64, 512]⟩
abbrev S512x512 : Shape := ⟨2, ![512, 512]⟩
abbrev S512 : Shape := ⟨1, ![512]⟩
abbrev S512x3072 : Shape := ⟨2, ![512, 3072]⟩
abbrev S3072 : Shape := ⟨1, ![3072]⟩
abbrev S1x3072 : Shape := ⟨2, ![1, 3072]⟩
abbrev S32x512 : Shape := ⟨2, ![32, 512]⟩
abbrev S32x64x512 : Shape := ⟨3, ![32, 64, 512]⟩
abbrev S32x3072 : Shape := ⟨2, ![32, 3072]⟩
abbrev S32x1x512 : Shape := ⟨3, ![32, 1, 512]⟩

abbrev nBuf : Space → Nat
  | .hbm => 24
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S1024x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x3072, .f32⟩
  | .hbm, ⟨21, _⟩ => ⟨S3072, .f32⟩
  | .hbm, ⟨22, _⟩ => ⟨S1x3072, .f32⟩
  | .hbm, ⟨23, _⟩ => ⟨S1024x64x512, .f32⟩
  | .local _ .vmem, ⟨0, _⟩ => ⟨S32x512, .f32⟩
  | .local _ .vmem, ⟨1, _⟩ => ⟨S32x512, .f32⟩
  | .local _ .vmem, ⟨2, _⟩ => ⟨S32x64x512, .f32⟩
  | .local _ .vmem, ⟨3, _⟩ => ⟨S32x64x512, .f32⟩
  | .local _ .vmem, ⟨4, _⟩ => ⟨S512x3072, .f32⟩
  | .local _ .vmem, ⟨5, _⟩ => ⟨S1x3072, .f32⟩
  | .local _ .vmem, ⟨6, _⟩ => ⟨S32x64x512, .f32⟩
  | .local _ .vmem, ⟨7, _⟩ => ⟨S32x64x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x512_S512x512_1_0 : S512x512.Transposes [1, 0] S512x512
  concatenates_S512x512_S512x512_S512x512_S512x512_S512x512_S512x512_S512x3072_d1 : Shape.Concatenates [S512x512, S512x512, S512x512, S512x512, S512x512, S512x512] S512x3072 1
  concatenates_S512_S512_S512_S512_S512_S512_S3072_d0 : Shape.Concatenates [S512, S512, S512, S512, S512, S512] S3072 0
  shapeCasts_S3072_S1x3072 : S3072.ShapeCasts S1x3072
  inb_S32x512_S32x512_0_0 : ∀ a, (![0, 0] : Fin 2 → Nat) a + S32x512.size a ≤ S32x512.size a
  h_S32x512 : 0 < S32x512.numel
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S32x3072 : S1x3072.Broadcasts S32x3072
  slices_S32x3072_o0_0_S32x512 : S32x3072.Slices ![0, 0] S32x512
  slices_S32x3072_o0_512_S32x512 : S32x3072.Slices ![0, 512] S32x512
  slices_S32x3072_o0_1024_S32x512 : S32x3072.Slices ![0, 1024] S32x512
  slices_S32x3072_o0_1536_S32x512 : S32x3072.Slices ![0, 1536] S32x512
  slices_S32x3072_o0_2048_S32x512 : S32x3072.Slices ![0, 2048] S32x512
  slices_S32x3072_o0_2560_S32x512 : S32x3072.Slices ![0, 2560] S32x512
  inb_S32x64x512_S32x64x512_0_0_0 : ∀ a, (![0, 0, 0] : Fin 3 → Nat) a + S32x64x512.size a ≤ S32x64x512.size a
  h_S32x64x512 : 0 < S32x64x512.numel
  rotates_S32x64x512_d1 : S32x64x512.Rotates 1 none
  shapeCasts_S32x512_S32x1x512 : S32x512.ShapeCasts S32x1x512
  broadcasts_S32x1x512_S32x64x512 : S32x1x512.Broadcasts S32x64x512
  slices_S32x64x512_o0_1_0_S32x1x512 : S32x64x512.Slices ![0, 1, 0] S32x1x512
  shapeCasts_S32x1x512_S32x512 : S32x1x512.ShapeCasts S32x512
  slices_S32x64x512_o0_0_0_S32x1x512 : S32x64x512.Slices ![0, 0, 0] S32x1x512
  slices_S32x64x512_o0_62_0_S32x1x512 : S32x64x512.Slices ![0, 62, 0] S32x1x512
  slices_S32x64x512_o0_63_0_S32x1x512 : S32x64x512.Slices ![0, 63, 0] S32x1x512
  inb_S32x64x512_S32x1x512_0_0_0 : ∀ a, (![0, 0, 0] : Fin 3 → Nat) a + S32x1x512.size a ≤ S32x64x512.size a
  h_S32x1x512 : 0 < S32x1x512.numel
  inb_S32x64x512_S32x1x512_0_63_0 : ∀ a, (![0, 63, 0] : Fin 3 → Nat) a + S32x1x512.size a ≤ S32x64x512.size a
  dot_S32x512_S512x3072_S32x3072_1_0_0_1_n_n_wf : DotDims.WF S32x512 S512x3072 S32x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S1024x512.size a
  hwx0_0 : ∀ i : grid0.Coords, EltTy.bits .f32 = 32 ∨ (Rect.block (s := S1024x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x512.size a ≤ S1024x64x512.size a
  hwx0_1 : ∀ i : grid0.Coords, EltTy.bits .f32 = 32 ∨ (Rect.block (s := S1024x64x512) S32x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S512x3072.size a
  hwx0_2 : ∀ i : grid0.Coords, EltTy.bits .f32 = 32 ∨ (Rect.block (s := S512x3072) S512x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x64x512.size a ≤ S1024x64x512.size a
  hwx0_4 : ∀ i : grid0.Coords, EltTy.bits .f32 = 32 ∨ (Rect.block (s := S1024x64x512) S32x64x512.size (cc0_transform_4 i) (hinb0_4 i)).WholeWords (EltTy.packing .f32)

variable [Facts₀]

def dot_S32x512_S512x3072_S32x3072_1_0_0_1_n_n : DotDims S32x512 S512x3072 S32x3072 where
  lhsContracting := [1]
  rhsContracting := [0]
  lhsNonContracting := [0]
  rhsNonContracting := [1]
  lhsBatch := []
  rhsBatch := []
  wf := dot_S32x512_S512x3072_S32x3072_1_0_0_1_n_n_wf

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S32x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024x64x512 : Shape := ⟨3, ![1024, 64, 512]⟩
abbrev S512x512 : Shape := ⟨2, ![512, 512]⟩
abbrev S512 : Shape := ⟨1, ![512]⟩
abbrev S1024x1x512 : Shape := ⟨3, ![1024, 1, 512]⟩
abbrev S1x1x512 : Shape := ⟨3, ![1, 1, 512]⟩
abbrev S_ : Shape := ⟨0, ![]⟩
abbrev S1024x65x512 : Shape := ⟨3, ![1024, 65, 512]⟩
abbrev S1024x63x512 : Shape := ⟨3, ![1024, 63, 512]⟩
abbrev S1024x3x512 : Shape := ⟨3, ![1024, 3, 512]⟩

abbrev nBuf : Space → Nat
  | .hbm => 123
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S1024x1x512, .f32⟩
  | .hbm, ⟨15, _⟩ => ⟨S1024x1x512, .f32⟩
  | .hbm, ⟨16, _⟩ => ⟨S1x1x512, .f32⟩
  | .hbm, ⟨17, _⟩ => ⟨S1024x1x512, .f32⟩
  | .hbm, ⟨18, _⟩ => ⟨S1024x1x512, .f32⟩
  | .hbm, ⟨19, _⟩ => ⟨S1024x1x512, .f32⟩
  | .hbm, ⟨20, _⟩ => ⟨S1024x1x512, .f32⟩
  | .hbm, ⟨21, _⟩ => ⟨S_, .f32⟩
  | .hbm, ⟨22, _⟩ => ⟨S1024x1x512, .f32⟩
  | .hbm, ⟨23, _⟩ => ⟨S1024x1x512, .f32⟩
  | .hbm, ⟨24, _⟩ => ⟨S_, .f32⟩
  | .hbm, ⟨25, _⟩ => ⟨S1024x1x512, .f32⟩
  | .hbm, ⟨26, _⟩ => ⟨S1024x1x512, .f32⟩
  | .hbm, ⟨27, _⟩ => ⟨S1024x64x512, .f32⟩
  | .hbm, ⟨28, _⟩ => ⟨S1024x64x512, .f32⟩
  | .hbm, ⟨29, _⟩ => ⟨S_, .f32⟩
  | .hbm, ⟨30, _⟩ => ⟨S1024x1x512, .f32⟩
  | .hbm, ⟨31, _⟩ => ⟨S1024x65x512, .f32⟩
  | .hbm, ⟨32, _⟩ => ⟨S1024x1x512, .f32⟩
  | .hbm, ⟨33, _⟩ => ⟨S1x1x512, .f32⟩
  | .hbm, ⟨34, _⟩ => ⟨S1024x1x512, .f32⟩
  | .hbm, ⟨35, _⟩ => ⟨S1024x1x512, .f32⟩
  | .hbm, ⟨36, _⟩ => ⟨S1024x1x512, .f32⟩
  | .hbm, ⟨37, _⟩ => ⟨S1024x1x512, .f32⟩
  | .hbm, ⟨38, _⟩ => ⟨S_, .f32⟩
  | .hbm, ⟨39, _⟩ => ⟨S1024x1x512, .f32⟩
  | .hbm, ⟨40, _⟩ => ⟨S1024x1x512, .f32⟩
  | .hbm, ⟨41, _⟩ => ⟨S_, .f32⟩
  | .hbm, ⟨42, _⟩ => ⟨S1024x1x512, .f32⟩
  | .hbm, ⟨43, _⟩ => ⟨S1024x1x512, .f32⟩
  | .hbm, ⟨44, _⟩ => ⟨S1024x1x512, .f32⟩
  | .hbm, ⟨45, _⟩ => ⟨S1x1x512, .f32⟩
  | .hbm, ⟨46, _⟩ => ⟨S1024x1x512, .f32⟩
  | .hbm, ⟨47, _⟩ => ⟨S1024x1x512, .f32⟩
  | .hbm, ⟨48, _⟩ => ⟨S1024x1x512, .f32⟩
  | .hbm, ⟨49, _⟩ => ⟨S1024x1x512, .f32⟩
  | .hbm, ⟨50, _⟩ => ⟨S_, .f32⟩
  | .hbm, ⟨51, _⟩ => ⟨S1024x1x512, .f32⟩
  | .hbm, ⟨52, _⟩ => ⟨S1024x1x512, .f32⟩
  | .hbm, ⟨53, _⟩ => ⟨S_, .f32⟩
  | .hbm, ⟨54, _⟩ => ⟨S1024x1x512, .f32⟩
  | .hbm, ⟨55, _⟩ => ⟨S1024x1x512, .f32⟩
  | .hbm, ⟨56, _⟩ => ⟨S1024x1x512, .f32⟩
  | .hbm, ⟨57, _⟩ => ⟨S1024x63x512, .f32⟩
  | .hbm, ⟨58, _⟩ => ⟨S1024x64x512, .f32⟩
  | .hbm, ⟨59, _⟩ => ⟨S1024x64x512, .f32⟩
  | .hbm, ⟨60, _⟩ => ⟨S1024x64x512, .f32⟩
  | .hbm, ⟨61, _⟩ => ⟨S1024x1x512, .f32⟩
  | .hbm, ⟨62, _⟩ => ⟨S1x1x512, .f32⟩
  | .hbm, ⟨63, _⟩ => ⟨S1024x1x512, .f32⟩
  | .hbm, ⟨64, _⟩ => ⟨S1024x1x512, .f32⟩
  | .hbm, ⟨65, _⟩ => ⟨S1024x1x512, .f32⟩
  | .hbm, ⟨66, _⟩ => ⟨S1024x1x512, .f32⟩
  | .hbm, ⟨67, _⟩ => ⟨S_, .f32⟩
  | .hbm, ⟨68, _⟩ => ⟨S1024x1x512, .f32⟩
  | .hbm, ⟨69, _⟩ => ⟨S1024x1x512, .f32⟩
  | .hbm, ⟨70, _⟩ => ⟨S_, .f32⟩
  | .hbm, ⟨71, _⟩ => ⟨S1024x1x512, .f32⟩
  | .hbm, ⟨72, _⟩ => ⟨S1024x1x512, .f32⟩
  | .hbm, ⟨73, _⟩ => ⟨S1024x1x512, .f32⟩
  | .hbm, ⟨74, _⟩ => ⟨S1x1x512, .f32⟩
  | .hbm, ⟨75, _⟩ => ⟨S1024x1x512, .f32⟩
  | .hbm, ⟨76, _⟩ => ⟨S1024x1x512, .f32⟩
  | .hbm, ⟨77, _⟩ => ⟨S1024x1x512, .f32⟩
  | .hbm, ⟨78, _⟩ => ⟨S1024x1x512, .f32⟩
  | .hbm, ⟨79, _⟩ => ⟨S_, .f32⟩
  | .hbm, ⟨80, _⟩ => ⟨S1024x1x512, .f32⟩
  | .hbm, ⟨81, _⟩ => ⟨S1024x1x512, .f32⟩
  | .hbm, ⟨82, _⟩ => ⟨S_, .f32⟩
  | .hbm, ⟨83, _⟩ => ⟨S1024x1x512, .f32⟩
  | .hbm, ⟨84, _⟩ => ⟨S1024x1x512, .f32⟩
  | .hbm, ⟨85, _⟩ => ⟨S1024x1x512, .f32⟩
  | .hbm, ⟨86, _⟩ => ⟨S1x1x512, .f32⟩
  | .hbm, ⟨87, _⟩ => ⟨S1024x1x512, .f32⟩
  | .hbm, ⟨88, _⟩ => ⟨S1024x1x512, .f32⟩
  | .hbm, ⟨89, _⟩ => ⟨S1024x1x512, .f32⟩
  | .hbm, ⟨90, _⟩ => ⟨S1024x1x512, .f32⟩
  | .hbm, ⟨91, _⟩ => ⟨S_, .f32⟩
  | .hbm, ⟨92, _⟩ => ⟨S1024x1x512, .f32⟩
  | .hbm, ⟨93, _⟩ => ⟨S1024x1x512, .f32⟩
  | .hbm, ⟨94, _⟩ => ⟨S_, .f32⟩
  | .hbm, ⟨95, _⟩ => ⟨S1024x1x512, .f32⟩
  | .hbm, ⟨96, _⟩ => ⟨S1024x1x512, .f32⟩
  | .hbm, ⟨97, _⟩ => ⟨S1024x3x512, .f32⟩
  | .hbm, ⟨98, _⟩ => ⟨S_, .f32⟩
  | .hbm, ⟨99, _⟩ => ⟨S1024x512, .f32⟩
  | .hbm, ⟨100, _⟩ => ⟨S_, .f32⟩
  | .hbm, ⟨101, _⟩ => ⟨S1024x512, .f32⟩
  | .hbm, ⟨102, _⟩ => ⟨S1024x512, .f32⟩
  | .hbm, ⟨103, _⟩ => ⟨S1024x1x512, .f32⟩
  | .hbm, ⟨104, _⟩ => ⟨S1024x3x512, .f32⟩
  | .hbm, ⟨105, _⟩ => ⟨S1024x3x512, .f32⟩
  | .hbm, ⟨106, _⟩ => ⟨S1024x3x512, .f32⟩
  | .hbm, ⟨107, _⟩ => ⟨S_, .f32⟩
  | .hbm, ⟨108, _⟩ => ⟨S1024x512, .f32⟩
  | .hbm, ⟨109, _⟩ => ⟨S1024x1x512, .f32⟩
  | .hbm, ⟨110, _⟩ => ⟨S1024x3x512, .f32⟩
  | .hbm, ⟨111, _⟩ => ⟨S1024x3x512, .f32⟩
  | .hbm, ⟨112, _⟩ => ⟨S1024x1x512, .f32⟩
  | .hbm, ⟨113, _⟩ => ⟨S1024x1x512, .f32⟩
  | .hbm, ⟨114, _⟩ => ⟨S1024x1x512, .f32⟩
  | .hbm, ⟨115, _⟩ => ⟨S1024x64x512, .f32⟩
  | .hbm, ⟨116, _⟩ => ⟨S1024x64x512, .f32⟩
  | .hbm, ⟨117, _⟩ => ⟨S1024x64x512, .f32⟩
  | .hbm, ⟨118, _⟩ => ⟨S1024x64x512, .f32⟩
  | .hbm, ⟨119, _⟩ => ⟨S1024x64x512, .f32⟩
  | .hbm, ⟨120, _⟩ => ⟨S1024x64x512, .f32⟩
  | .hbm, ⟨121, _⟩ => ⟨S1024x64x512, .f32⟩
  | .hbm, ⟨122, _⟩ => ⟨S1024x64x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_10 : Ref sig .tc := ⟨.hbm, 91, rfl⟩
abbrev main_v66 : Ref sig .tc := ⟨.hbm, 92, rfl⟩
abbrev main_v67 : Ref sig .tc := ⟨.hbm, 93, rfl⟩
abbrev main_cst_11 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_12 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  bcast_S512_S1x1x512_2 : S512.BroadcastsInDim S1x1x512 (![2] : Fin 1 → Fin S1x1x512.rank)
  bcast_S1x1x512_S1024x1x512_0_1_2 : S1x1x512.BroadcastsInDim S1024x1x512 (![0, 1, 2] : Fin 3 → Fin S1024x1x512.rank)
  bcast_S_S1024x1x512 : S_.BroadcastsInDim S1024x1x512 (![] : Fin 0 → Fin S1024x1x512.rank)
  bcast_S1024x1x512_S1024x64x512_0_1_2 : S1024x1x512.BroadcastsInDim S1024x64x512 (![0, 1, 2] : Fin 3 → Fin S1024x64x512.rank)
  concatenates_S1024x64x512_S1024x1x512_S1024x65x512_d1 : Shape.Concatenates [S1024x64x512, S1024x1x512] S1024x65x512 1
  slices_S1024x65x512_S1024x63x512_0_0_0 : S1024x65x512.Slices ![0, 0, 0] S1024x63x512
  concatenates_S1024x1x512_S1024x63x512_S1024x64x512_d1 : Shape.Concatenates [S1024x1x512, S1024x63x512] S1024x64x512 1
  slices_S1024x65x512_S1024x64x512_0_1_0 : S1024x65x512.Slices ![0, 1, 0] S1024x64x512
  slices_S1024x65x512_S1024x64x512_0_0_0 : S1024x65x512.Slices ![0, 0, 0] S1024x64x512
  concatenates_S1024x1x512_S1024x1x512_S1024x1x512_S1024x3x512_d1 : Shape.Concatenates [S1024x1x512, S1024x1x512, S1024x1x512] S1024x3x512 1
  reducesTo_S1024x3x512_S1024x512_d1 : S1024x3x512.ReducesTo [1] S1024x512
  h_S_ : 0 < S_.numel
  bcast_S_S1024x512 : S_.BroadcastsInDim S1024x512 (![] : Fin 0 → Fin S1024x512.rank)
  bcast_S1024x1x512_S1024x3x512_0_1_2 : S1024x1x512.BroadcastsInDim S1024x3x512 (![0, 1, 2] : Fin 3 → Fin S1024x3x512.rank)
  slices_S1024x3x512_S1024x1x512_0_0_0 : S1024x3x512.Slices ![0, 0, 0] S1024x1x512
  slices_S1024x3x512_S1024x1x512_0_1_0 : S1024x3x512.Slices ![0, 1, 0] S1024x1x512
  slices_S1024x3x512_S1024x1x512_0_2_0 : S1024x3x512.Slices ![0, 2, 0] S1024x1x512
  dot_S1024x1x512_S512x512_S1024x1x512_2_1_01_0_n_n_wf : DotDims.WF S1024x1x512 S512x512 S1024x1x512 [2] [1] [0, 1] [0] [] []

variable [Facts₀]

def dot_S1024x1x512_S512x512_S1024x1x512_2_1_01_0_n_n : DotDims S1024x1x512 S512x512 S1024x1x512 where
  lhsContracting := [2]
  rhsContracting := [1]
  lhsNonContracting := [0, 1]
  rhsNonContracting := [0]
  lhsBatch := []
  rhsBatch := []
  wf := dot_S1024x1x512_S512x512_S1024x1x512_2_1_01_0_n_n_wf

class Facts : Prop extends Facts₀ where

variable [Facts]
-- ==== Proof.KernelFrame.lean ====
/-
  The frame of the program: every weakly fair execution of @main terminates, nothing faults, and the
  fourteen argument arrays end as they began.

  @main is nine host operations (six transposes, two concatenations, one reshape) and then ONE pipelined region over
  32 grid points. The host operations write only the fresh buffers main_v0 … main_v8, so the region finds every
  argument array as launched. At each point the body reads the four input blocks whole, stores the whole output block
  and then overwrites its slot-0 and slot-63 rows: the output's staging buffer ends at the latest-store-wins overlay
  of three pieces (`outBlock`), and the inputs' staging buffers are left as found. The region's invariant is the
  class invariant (scoped rest and generator register), untouched by the body.
-/
import proofs.«132333_j42477226557548_2_alg».proof.Proof.Gen.Kernel.Launch
import proofs.«132333_j42477226557548_2_alg».proof.Proof.Gen.Kernel.Skeleton
import proofs.«132333_j42477226557548_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` as the region finds them: the launch contents after the nine host operations. -/
abbrev V (c : Dev nD) (b : Ref sig .tc) : Buf (Elt F) ((c : Thread nD τ).loc b) := StableHlo.after hostOps0 (fun b => m (c, b)) b

/-- None of the nine host operations allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the nine host operations writes is found as launched. -/
theorem V_of_not_written (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes, Finset.mem_singleton]
    obtain ⟨h0, h1, h2, h3, h4, h5, h6, h7, h8⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8⟩))

/-- In particular each of the fourteen argument arrays. -/
theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)
theorem V_main_arg9 (c : Dev nD) : V m c main_arg9 = m ((c : Thread nD τ).loc main_arg9) := V_of_not_written m c _ (by decide)
theorem V_main_arg10 (c : Dev nD) : V m c main_arg10 = m ((c : Thread nD τ).loc main_arg10) := V_of_not_written m c _ (by decide)
theorem V_main_arg11 (c : Dev nD) : V m c main_arg11 = m ((c : Thread nD τ).loc main_arg11) := V_of_not_written m c _ (by decide)
theorem V_main_arg12 (c : Dev nD) : V m c main_arg12 = m ((c : Thread nD τ).loc main_arg12) := V_of_not_written m c _ (by decide)
theorem V_main_arg13 (c : Dev nD) : V m c main_arg13 = m ((c : Thread nD τ).loc main_arg13) := V_of_not_written m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run to the library's frame post, read at the fourteen argument arrays, is the frame claim's post: the two staged
    arguments through their windows' arrays, the twelve others among the buffers no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses -/

/-- The four whole-block loads, the whole-block store, and the two boundary rows (slot 0 and slot 63). -/
abbrev rX : Rect S32x512 := Rect.unit (s := S32x512) ![0, 0] S32x512.size inb_S32x512_S32x512_0_0
abbrev rW : Rect S512x3072 := Rect.unit (s := S512x3072) ![0, 0] S512x3072.size inb_S512x3072_S512x3072_0_0
abbrev rB : Rect S1x3072 := Rect.unit (s := S1x3072) ![0, 0] S1x3072.size inb_S1x3072_S1x3072_0_0
abbrev rS : Rect S32x64x512 := Rect.unit (s := S32x64x512) ![0, 0, 0] S32x64x512.size inb_S32x64x512_S32x64x512_0_0_0
abbrev rTop : Rect S32x64x512 := Rect.unit (s := S32x64x512) ![0, 0, 0] S32x1x512.size inb_S32x64x512_S32x1x512_0_0_0
abbrev rBot : Rect S32x64x512 := Rect.unit (s := S32x64x512) ![0, 63, 0] S32x1x512.size inb_S32x64x512_S32x1x512_0_63_0

/-! ## What the body leaves in the output's staging buffer -/

/-- The output block after the body, from the four input blocks: the three stores as pieces, the latest first — the
    slot-63 row over the slot-0 row over the whole block. -/
def outBlock (x0 : Vec F S32x512 .f32) (x1 : Vec F S32x64x512 .f32) (x2 : Vec F S512x3072 .f32) (x3 : Vec F S1x3072 .f32) : Vec F S32x64x512 .f32 :=
  View.canon [⟨rBot, k0_pay3 (k0_pay16 (View.ld x0 rX) (View.ld x2 rW) (View.ld x3 rB)) (k0_pay18 (View.ld x0 rX) (View.ld x2 rW) (View.ld x3 rB)) (View.ld x1 rS)⟩,
    ⟨rTop, k0_pay2 (k0_pay6 (View.ld x0 rX) (View.ld x2 rW) (View.ld x3 rB)) (k0_pay15 (View.ld x0 rX) (View.ld x2 rW) (View.ld x3 rB)) (k0_pay17 (View.ld x0 rX) (View.ld x2 rW) (View.ld x3 rB)) (k0_pay18 (View.ld x0 rX) (View.ld x2 rW) (View.ld x3 rB)) (View.ld x1 rS)⟩,
    ⟨rS, k0_pay1 (k0_pay18 (View.ld x0 rX) (View.ld x2 rW) (View.ld x3 rB)) (View.ld x1 rS) (k0_pay19 (View.ld x0 rX) (View.ld x2 rW) (View.ld x3 rB) (View.ld x1 rS))⟩]

/-- The whole-block store alone covers the block. -/
theorem cover_out (p0 p1 : Vec F S32x1x512 .f32) (p2 : Vec F S32x64x512 .f32) (y : S32x64x512.Idx) :
    ∃ pc ∈ ([⟨rBot, p0⟩, ⟨rTop, p1⟩, ⟨rS, p2⟩] : List (View.Piece (Elt F) S32x64x512 .f32)), y ∈ pc.1.set :=
  ⟨⟨rS, p2⟩, by simp, by
    rw [Rect.mem_set_unit]
    intro a
    refine ⟨?_, ?_⟩
    · fin_cases a <;> exact Nat.zero_le _
    · fin_cases a <;> exact (Nat.zero_add _).symm ▸ (y _).isLt⟩

/-! ## The body's triple -/

set_option maxHeartbeats 4000000 in
/-- On whole staging memrefs — the four inputs' at contents `x0 … x3`, the output's at anything — the body runs to a
    continuation that holds the inputs' as they were and the output's at `outBlock`. -/
theorem sound_kernel (c : Dev nD) (E : Set ℕ) (i : grid0.Coords)
    (arg1 : Memref sig .tc .vmem S32x512 .f32) (harg1 : arg1.IsWhole) (arg2 : Memref sig .tc .vmem S32x64x512 .f32) (harg2 : arg2.IsWhole)
    (arg3 : Memref sig .tc .vmem S512x3072 .f32) (harg3 : arg3.IsWhole) (arg4 : Memref sig .tc .vmem S1x3072 .f32) (harg4 : arg4.IsWhole)
    (arg5 : Memref sig .tc .vmem S32x64x512 .f32) (harg5 : arg5.IsWhole)
    (x0 : Vec F S32x512 .f32) (x1 : Vec F S32x64x512 .f32) (x2 : Vec F S512x3072 .f32) (x3 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover_out _ _ _)

/-! ## The pipeline's proof data -/

/-- The proof data of the pipeline on core `c`: the arrays as the region finds them; after the body at point `t` each
    input's buffer at its block and the output's at `outBlock` of the four input blocks; the class invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (iblk m c 0 t) (iblk m c 1 t) (iblk m c 2 t) (iblk m c 3 t) := by dsimp only [dats]

theorem before0_0 (c : Dev nD) (t : Fin cfg0.N) (d) : (dats m 0 c).before 0 t d = iblk m c 0 t :=
  before_in0 m (dats m 0 c) (A_eq m c 0) (after0_0 m c) t d
theorem before0_1 (c : Dev nD) (t : Fin cfg0.N) (d) : (dats m 0 c).before 1 t d = iblk m c 1 t :=
  before_in1 m (dats m 0 c) (A_eq m c 1) (after0_1 m c) t d
theorem before0_2 (c : Dev nD) (t : Fin cfg0.N) (d) : (dats m 0 c).before 2 t d = iblk m c 2 t :=
  before_in2 m (dats m 0 c) (A_eq m c 2) (after0_2 m c) t d
theorem before0_3 (c : Dev nD) (t : Fin cfg0.N) (d) : (dats m 0 c).before 3 t d = iblk m c 3 t :=
  before_in3 m (dats m 0 c) (A_eq m c 3) (after0_3 m c) t d

/-! ## The body obligation -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' staging buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    proof data gives after the last point and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Frame

end
-- ==== Proof.KernelIdealFrame.lean ====
/-
  The frame of the program: every weakly fair execution of @main terminates, nothing faults, and the
  fourteen argument arrays end as they began.

  @main is nine host operations (six transposes, two concatenations, one reshape) and then ONE pipelined region over
  32 grid points. The host operations write only the fresh buffers main_v0 … main_v8, so the region finds every
  argument array as launched. At each point the body reads the four input blocks whole, stores the whole output block
  and then overwrites its slot-0 and slot-63 rows: the output's staging buffer ends at the latest-store-wins overlay
  of three pieces (`outBlock`), and the inputs' staging buffers are left as found. The region's invariant is the
  class invariant (scoped rest and generator register), untouched by the body.
-/
import proofs.«132333_j42477226557548_2_alg».proof.Proof.Gen.KernelIdeal.Launch
import proofs.«132333_j42477226557548_2_alg».proof.Proof.Gen.KernelIdeal.Skeleton
import proofs.«132333_j42477226557548_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` as the region finds them: the launch contents after the nine host operations. -/
abbrev V (c : Dev nD) (b : Ref sig .tc) : Buf (Elt F) ((c : Thread nD τ).loc b) := StableHlo.after hostOps0 (fun b => m (c, b)) b

/-- None of the nine host operations allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the nine host operations writes is found as launched. -/
theorem V_of_not_written (c : Dev nD) (b : Ref sig .tc)
    (h : b ≠ main_v0 ∧ b ≠ main_v1 ∧ b ≠ main_v2 ∧ b ≠ main_v3 ∧ b ≠ main_v4 ∧ b ≠ main_v5 ∧ b ≠ main_v6 ∧ b ≠ main_v7 ∧ b ≠ main_v8) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes, Finset.mem_singleton]
    obtain ⟨h0, h1, h2, h3, h4, h5, h6, h7, h8⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8⟩))

/-- In particular each of the fourteen argument arrays. -/
theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)
theorem V_main_arg9 (c : Dev nD) : V m c main_arg9 = m ((c : Thread nD τ).loc main_arg9) := V_of_not_written m c _ (by decide)
theorem V_main_arg10 (c : Dev nD) : V m c main_arg10 = m ((c : Thread nD τ).loc main_arg10) := V_of_not_written m c _ (by decide)
theorem V_main_arg11 (c : Dev nD) : V m c main_arg11 = m ((c : Thread nD τ).loc main_arg11) := V_of_not_written m c _ (by decide)
theorem V_main_arg12 (c : Dev nD) : V m c main_arg12 = m ((c : Thread nD τ).loc main_arg12) := V_of_not_written m c _ (by decide)
theorem V_main_arg13 (c : Dev nD) : V m c main_arg13 = m ((c : Thread nD τ).loc main_arg13) := V_of_not_written m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run to the library's frame post, read at the fourteen argument arrays, is the frame claim's post: the two staged
    arguments through their windows' arrays, the twelve others among the buffers no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses -/

/-- The four whole-block loads, the whole-block store, and the two boundary rows (slot 0 and slot 63). -/
abbrev rX : Rect S32x512 := Rect.unit (s := S32x512) ![0, 0] S32x512.size inb_S32x512_S32x512_0_0
abbrev rW : Rect S512x3072 := Rect.unit (s := S512x3072) ![0, 0] S512x3072.size inb_S512x3072_S512x3072_0_0
abbrev rB : Rect S1x3072 := Rect.unit (s := S1x3072) ![0, 0] S1x3072.size inb_S1x3072_S1x3072_0_0
abbrev rS : Rect S32x64x512 := Rect.unit (s := S32x64x512) ![0, 0, 0] S32x64x512.size inb_S32x64x512_S32x64x512_0_0_0
abbrev rTop : Rect S32x64x512 := Rect.unit (s := S32x64x512) ![0, 0, 0] S32x1x512.size inb_S32x64x512_S32x1x512_0_0_0
abbrev rBot : Rect S32x64x512 := Rect.unit (s := S32x64x512) ![0, 63, 0] S32x1x512.size inb_S32x64x512_S32x1x512_0_63_0

/-! ## What the body leaves in the output's staging buffer -/

/-- The output block after the body, from the four input blocks: the three stores as pieces, the latest first — the
    slot-63 row over the slot-0 row over the whole block. -/
def outBlock (x0 : Vec F S32x512 .f32) (x1 : Vec F S32x64x512 .f32) (x2 : Vec F S512x3072 .f32) (x3 : Vec F S1x3072 .f32) : Vec F S32x64x512 .f32 :=
  View.canon [⟨rBot, k0_pay3 (k0_pay16 (View.ld x0 rX) (View.ld x2 rW) (View.ld x3 rB)) (k0_pay18 (View.ld x0 rX) (View.ld x2 rW) (View.ld x3 rB)) (View.ld x1 rS)⟩,
    ⟨rTop, k0_pay2 (k0_pay6 (View.ld x0 rX) (View.ld x2 rW) (View.ld x3 rB)) (k0_pay15 (View.ld x0 rX) (View.ld x2 rW) (View.ld x3 rB)) (k0_pay17 (View.ld x0 rX) (View.ld x2 rW) (View.ld x3 rB)) (k0_pay18 (View.ld x0 rX) (View.ld x2 rW) (View.ld x3 rB)) (View.ld x1 rS)⟩,
    ⟨rS, k0_pay1 (k0_pay18 (View.ld x0 rX) (View.ld x2 rW) (View.ld x3 rB)) (View.ld x1 rS) (k0_pay19 (View.ld x0 rX) (View.ld x2 rW) (View.ld x3 rB) (View.ld x1 rS))⟩]

/-- The whole-block store alone covers the block. -/
theorem cover_out (p0 p1 : Vec F S32x1x512 .f32) (p2 : Vec F S32x64x512 .f32) (y : S32x64x512.Idx) :
    ∃ pc ∈ ([⟨rBot, p0⟩, ⟨rTop, p1⟩, ⟨rS, p2⟩] : List (View.Piece (Elt F) S32x64x512 .f32)), y ∈ pc.1.set :=
  ⟨⟨rS, p2⟩, by simp, by
    rw [Rect.mem_set_unit]
    intro a
    refine ⟨?_, ?_⟩
    · fin_cases a <;> exact Nat.zero_le _
    · fin_cases a <;> exact (Nat.zero_add _).symm ▸ (y _).isLt⟩

/-! ## The body's triple -/

set_option maxHeartbeats 4000000 in
/-- On whole staging memrefs — the four inputs' at contents `x0 … x3`, the output's at anything — the body runs to a
    continuation that holds the inputs' as they were and the output's at `outBlock`. -/
theorem sound_kernel (c : Dev nD) (E : Set ℕ) (i : grid0.Coords)
    (arg1 : Memref sig .tc .vmem S32x512 .f32) (harg1 : arg1.IsWhole) (arg2 : Memref sig .tc .vmem S32x64x512 .f32) (harg2 : arg2.IsWhole)
    (arg3 : Memref sig .tc .vmem S512x3072 .f32) (harg3 : arg3.IsWhole) (arg4 : Memref sig .tc .vmem S1x3072 .f32) (harg4 : arg4.IsWhole)
    (arg5 : Memref sig .tc .vmem S32x64x512 .f32) (harg5 : arg5.IsWhole)
    (x0 : Vec F S32x512 .f32) (x1 : Vec F S32x64x512 .f32) (x2 : Vec F S512x3072 .f32) (x3 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover_out _ _ _)

/-! ## The pipeline's proof data -/

/-- The proof data of the pipeline on core `c`: the arrays as the region finds them; after the body at point `t` each
    input's buffer at its block and the output's at `outBlock` of the four input blocks; the class invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (iblk m c 0 t) (iblk m c 1 t) (iblk m c 2 t) (iblk m c 3 t) := by dsimp only [dats]

theorem before0_0 (c : Dev nD) (t : Fin cfg0.N) (d) : (dats m 0 c).before 0 t d = iblk m c 0 t :=
  before_in0 m (dats m 0 c) (A_eq m c 0) (after0_0 m c) t d
theorem before0_1 (c : Dev nD) (t : Fin cfg0.N) (d) : (dats m 0 c).before 1 t d = iblk m c 1 t :=
  before_in1 m (dats m 0 c) (A_eq m c 1) (after0_1 m c) t d
theorem before0_2 (c : Dev nD) (t : Fin cfg0.N) (d) : (dats m 0 c).before 2 t d = iblk m c 2 t :=
  before_in2 m (dats m 0 c) (A_eq m c 2) (after0_2 m c) t d
theorem before0_3 (c : Dev nD) (t : Fin cfg0.N) (d) : (dats m 0 c).before 3 t d = iblk m c 3 t :=
  before_in3 m (dats m 0 c) (A_eq m c 3) (after0_3 m c) t d

/-! ## The body obligation -/

/-- What the body is handed at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' staging buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    proof data gives after the last point and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Frame

end
-- ==== Proof.Spec.lean ====
/-
  The specification: one step of a differentiable stack, as ONE function of the argument arrays.

  For a batch row `r`, a feature `e` and a stack slot `s`, six affine forms of the input row
  `x r` — `logit W b r e = (∑ k, x (r,k) · W (e,k)) + b e` — go through the logistic function:
  the decay gate `g`, the two factors of the pushed value, and three action scores `p, q, n`.
  The scores are normalised by a softmax over the three actions (`share`), each share is scaled
  by the decay gate, and the new column of 64 slots is (`mix`)

      slot 0        share_push · pushed + (share_pop · g) · old 1 + (share_keep · g) · old 0
      slot 63       (share_push · g) · old 62                   + (share_keep · g) · old 63
      slot s        (share_push · g) · old (s-1) + (share_pop · g) · old (s+1) + (share_keep · g) · old s

  All of it on the extended reals, with the operations of the ideal instance.
-/
import Idealize.ShloMosaic.PureOps.Ideal
import Idealize.ShloMosaic.Lib.ValueIdx

noncomputable section

open scoped BigOperators

namespace Cert.StackStep

open Idealize.ShloMosaic Idealize.ShloMosaic.ValueIdx

/-- The input rows, the old stack, a weight matrix and a bias vector, as functions on indices. -/
abbrev Rows := (⟨2, ![1024, 512]⟩ : Shape).Idx → EReal
abbrev Stack := (⟨3, ![1024, 64, 512]⟩ : Shape).Idx → EReal
abbrev Weight := (⟨2, ![512, 512]⟩ : Shape).Idx → EReal
abbrev Bias := (⟨1, ![512]⟩ : Shape).Idx → EReal

/-- One affine form of row `r` at output feature `e`: `x r · W e + b e` (the weight is stored output-major). -/
def logit (x : Rows) (W : Weight) (b : Bias) (r : Fin 1024) (e : Fin 512) : EReal :=
  (∑ k : Fin 512, x (ix2 r k) * W (ix2 e k)) + b (ix1 e)

/-- The logistic function of an affine form. -/
def gate (x : Rows) (W : Weight) (b : Bias) (r : Fin 1024) (e : Fin 512) : EReal :=
  Ideal.logistic (logit x W b r e)

/-- The largest of three scores. -/
def top (p q n : EReal) : EReal := max (max p q) n

/-- The softmax share of score `a` among the three scores `p, q, n`, shifted by their maximum. -/
def share (a p q n : EReal) : EReal :=
  Ideal.div (Ideal.exp (a - top p q n))
    ((Ideal.exp (p - top p q n) + Ideal.exp (q - top p q n)) + Ideal.exp (n - top p q n))

/-- One column of 64 slots after the step: decay gate `g`, pushed value, the three action scores, and the old column `o`. -/
def mix (g pushed p q n : EReal) (o : Fin 64 → EReal) (s : Fin 64) : EReal :=
  if h0 : s.val = 0 then
    (share p p q n * pushed + (share q p q n * g) * o 1) + (share n p q n * g) * o 0
  else if h63 : s.val = 63 then
    (share p p q n * g) * o 62 + (share n p q n * g) * o 63
  else
    ((share p p q n * g) * o ⟨s.val - 1, by omega⟩ + (share q p q n * g) * o ⟨s.val + 1, by omega⟩)
      + (share n p q n * g) * o s

/-- The new stack at batch row `r`, slot `s`, feature `e`. -/
def G (x : Rows) (st : Stack) (Wg : Weight) (bg : Bias) (Wi : Weight) (bi : Bias) (Wd : Weight) (bd : Bias)
    (Wp : Weight) (bp : Bias) (Wq : Weight) (bq : Bias) (Wn : Weight) (bn : Bias)
    (r : Fin 1024) (s : Fin 64) (e : Fin 512) : EReal :=
  mix (gate x Wg bg r e) (gate x Wi bi r e * gate x Wd bd r e)
    (gate x Wp bp r e) (gate x Wq bq r e) (gate x Wn bn r e) (fun s' => st (ix3 r s' e)) s

end Cert.StackStep

end
-- ==== Proof.BlockValue.lean ====
/-
  The kernel's arithmetic read at an index, on the extended reals.

  One block of the kernel takes 32 input rows `x`, the six weights laid side by side as one `[512, 3072]` matrix `W`, the six
  biases as one row `b`, and a `[32, 64, 512]` block of the old stack. It forms `x·W + b` once, cuts it into six column
  bands of width 512 — affine form `g` at feature `e` is column `g·512 + e` (`L`) —, takes the logistic of each (`σ`), and
  from them the decay gate, the pushed value, and the three softmax shares scaled by the gate. The new block is written
  three times: every slot from the two rotations of the old block (`pay1_apply`, right at the inner slots), then slot 0
  (`pay2_apply`) and slot 63 (`pay3_apply`) from single rows of it. Each is the specification's `mix` of the same six
  logistic values and the old column, in the same order of operations.

  Last, the two layout facts of the operands themselves: the matrix `W` is the six transposed weights joined along the
  columns (`wcat_apply`), the row `b` the six biases joined end to end (`bcat_apply`).
-/
import proofs.«132333_j42477226557548_2_alg».proof.Proof.Gen.KernelIdeal.Skeleton
import proofs.«132333_j42477226557548_2_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.KernelIdeal.BlockValue

open Idealize.ShloMosaic Idealize.ShloMosaic.ValueIdx Cert.KernelIdeal Cert.KernelIdeal.Gen

/-! ## The matrix product at an index -/

/-- The left operand's row coordinate is the output's row. -/
theorem lhs_0 (i : S32x3072.Idx) (q : dot_S32x512_S512x3072_S32x3072_1_0_0_1_n_n.contr.Idx) :
    (dot_S32x512_S512x3072_S32x3072_1_0_0_1_n_n.lhsIdx i q 0).val = (i 0).val := by
  unfold DotDims.lhsIdx
  rw [dif_neg (show ¬(0 : Fin S32x512.rank) ∈ dot_S32x512_S512x3072_S32x3072_1_0_0_1_n_n.lhsBatch by decide),
    dif_pos (show (0 : Fin S32x512.rank) ∈ dot_S32x512_S512x3072_S32x3072_1_0_0_1_n_n.lhsNonContracting by decide)]
  rfl
/-- The left operand's column coordinate is the contraction coordinate. -/
theorem lhs_1 (i : S32x3072.Idx) (q : dot_S32x512_S512x3072_S32x3072_1_0_0_1_n_n.contr.Idx) :
    (dot_S32x512_S512x3072_S32x3072_1_0_0_1_n_n.lhsIdx i q 1).val = (q ⟨0, by decide⟩).val :=
  dot_S32x512_S512x3072_S32x3072_1_0_0_1_n_n.lhsIdx_val_of_single rfl i q
/-- The right operand's row coordinate is the contraction coordinate. -/
theorem rhs_0 (i : S32x3072.Idx) (q : dot_S32x512_S512x3072_S32x3072_1_0_0_1_n_n.contr.Idx) :
    (dot_S32x512_S512x3072_S32x3072_1_0_0_1_n_n.rhsIdx i q 0).val = (q ⟨0, by decide⟩).val :=
  dot_S32x512_S512x3072_S32x3072_1_0_0_1_n_n.rhsIdx_val_of_single rfl i q
/-- The right operand's column coordinate is the output's column. -/
theorem rhs_1 (i : S32x3072.Idx) (q : dot_S32x512_S512x3072_S32x3072_1_0_0_1_n_n.contr.Idx) :
    (dot_S32x512_S512x3072_S32x3072_1_0_0_1_n_n.rhsIdx i q 1).val = (i 1).val := by
  unfold DotDims.rhsIdx
  rw [dif_neg (show ¬(1 : Fin S512x3072.rank) ∈ dot_S32x512_S512x3072_S32x3072_1_0_0_1_n_n.rhsBatch by decide),
    dif_pos (show (1 : Fin S512x3072.rank) ∈ dot_S32x512_S512x3072_S32x3072_1_0_0_1_n_n.rhsNonContracting by decide)]
  rfl

/-- The kernel's one matrix product into a zero accumulator, read at row `p`, column `c`: the sum over the
    contraction coordinate of the products of the operands' entries. -/
theorem matmul_ix (x0 : FVec Ideal S32x512 .f32) (w : FVec Ideal S512x3072 .f32) (p : Fin 32) (c : Fin 3072) :
    matmul dot_S32x512_S512x3072_S32x3072_1_0_0_1_n_n (some .fp32) x0 w (constant (F := Ideal) S32x3072 .f32 0x00000000#32) (ix2 p c)
      = ∑ k : Fin 512, x0 (ix2 p k) * w (ix2 k c) := by
  simp only [matmul]
  rw [Ideal.matmul_constant_zero_apply,
    ← Equiv.sum_comp (contrEquiv1 dot_S32x512_S512x3072_S32x3072_1_0_0_1_n_n 512 rfl rfl).symm]
  refine Finset.sum_congr rfl fun k _ => ?_
  have hk := contrEquiv1_symm_val dot_S32x512_S512x3072_S32x3072_1_0_0_1_n_n 512 rfl rfl k
  have el : dot_S32x512_S512x3072_S32x3072_1_0_0_1_n_n.lhsIdx (ix2 p c)
      ((contrEquiv1 dot_S32x512_S512x3072_S32x3072_1_0_0_1_n_n 512 rfl rfl).symm k) = ix2 p k :=
    funext fun a => Fin.ext (by
      match a with
      | ⟨0, _⟩ => exact lhs_0 _ _
      | ⟨1, _⟩ => exact (lhs_1 _ _).trans hk)
  have er : dot_S32x512_S512x3072_S32x3072_1_0_0_1_n_n.rhsIdx (ix2 p c)
      ((contrEquiv1 dot_S32x512_S512x3072_S32x3072_1_0_0_1_n_n 512 rfl rfl).symm k) = ix2 k c :=
    funext fun a => Fin.ext (by
      match a with
      | ⟨0, _⟩ => exact (rhs_0 _ _).trans hk
      | ⟨1, _⟩ => exact rhs_1 _ _)
  rw [el, er]

/-- The affine block `x·W + b` read at row `p`, column `c`. -/
theorem pay4_ix (x0 : Vec Ideal S32x512 .f32) (v1 : Vec Ideal S512x3072 .f32) (v4 : Vec Ideal S1x3072 .f32)
    (p : Fin 32) (c : Fin 3072) :
    k0_pay4 (F := Ideal) x0 v1 v4 (ix2 p c)
      = (∑ k : Fin 512, x0 (ix2 p k) * v1 (ix2 k c)) + v4 (ix2 (0 : Fin 1) c) := by
  unfold k0_pay4
  rw [shapeCast_self, shapeCast_self]
  show addf _ _ (ix2 p c) = _
  rw [addf_apply, matmul_ix, broadcastTo_1b_ab_apply]

/-! ## The two rotations of the stack block at an index -/

/-- A rotation of the stack block by one slot along axis 1 reads the slot before. -/
theorem rot1_ix (v : Vec Ideal S32x64x512 .f32) (p : Fin 32) (s : Fin 64) (e : Fin 512) (h0 : s.val ≠ 0) :
    dynamicRotate 1 1#32 none v rotates_S32x64x512_d1 (ix3 p s e) = v (ix3 p ⟨s.val - 1, by omega⟩ e) :=
  dynamicRotate_apply 1 1#32 v rotates_S32x64x512_d1 _ _ fun b => by
    match b with
    | ⟨0, _⟩ => rfl
    | ⟨1, _⟩ =>
      show s.val - 1 = (s.val + 64 - 1 % 64) % 64
      have := s.isLt
      omega
    | ⟨2, _⟩ => rfl

/-- A rotation of the stack block by sixty-three slots along axis 1 reads the slot after. -/
theorem rot63_ix (v : Vec Ideal S32x64x512 .f32) (p : Fin 32) (s : Fin 64) (e : Fin 512) (h63 : s.val ≠ 63) :
    dynamicRotate 1 63#32 none v rotates_S32x64x512_d1 (ix3 p s e) = v (ix3 p ⟨s.val + 1, by omega⟩ e) :=
  dynamicRotate_apply 1 63#32 v rotates_S32x64x512_d1 _ _ fun b => by
    match b with
    | ⟨0, _⟩ => rfl
    | ⟨1, _⟩ =>
      show s.val + 1 = (s.val + 64 - 63 % 64) % 64
      have := s.isLt
      omega
    | ⟨2, _⟩ => rfl

/-! ## The six affine forms and their logistic values -/

/-- Affine form `g` of input row `p` at feature `e`: column `g·512 + e` of `x·W + b`. -/
def L (x0 : Vec Ideal S32x512 .f32) (v1 : Vec Ideal S512x3072 .f32) (v4 : Vec Ideal S1x3072 .f32)
    (g : Fin 6) (p : Fin 32) (e : Fin 512) : EReal :=
  (∑ k : Fin 512, x0 (ix2 p k) * v1 (ix2 k ⟨g.val * 512 + e.val, by omega⟩))
    + v4 (ix2 (0 : Fin 1) ⟨g.val * 512 + e.val, by omega⟩)

/-- The column slice of width 512 at offset `g·512` of the affine block is affine form `g`. -/
theorem slice_ix (x0 : Vec Ideal S32x512 .f32) (v1 : Vec Ideal S512x3072 .f32) (v4 : Vec Ideal S1x3072 .f32)
    (o : Nat) (g : Fin 6) (ho : o = g.val * 512) (h : S32x3072.Slices ![0, o] S32x512) (p : Fin 32) (e : Fin 512) :
    extractStridedSlice S32x512 ![0, o] (k0_pay4 (F := Ideal) x0 v1 v4) h (ix2 p e) = L x0 v1 v4 g p e := by
  rw [slice2_axis1_apply o _ h p e ⟨g.val * 512 + e.val, by omega⟩ (by show g.val * 512 + e.val = o + e.val; omega),
    pay4_ix]
  rfl

section Block

variable (x0 : Vec Ideal S32x512 .f32) (v1 : Vec Ideal S512x3072 .f32) (v4 : Vec Ideal S1x3072 .f32)
  (v37 : Vec Ideal S32x64x512 .f32) (p : Fin 32) (e : Fin 512)

/-- The logistic value of affine form `g`. -/
def σ (g : Fin 6) : EReal := Ideal.logistic (L x0 v1 v4 g p e)

theorem pay5_ix : k0_pay5 (F := Ideal) x0 v1 v4 (ix2 p e) = σ x0 v1 v4 p e 0 := by
  unfold k0_pay5
  show FloatOps.logistic (extractStridedSlice S32x512 ![0, 0] (k0_pay4 (F := Ideal) x0 v1 v4) slices_S32x3072_o0_0_S32x512 (ix2 p e)) = _
  rw [slice_ix x0 v1 v4 0 0 rfl]
  rfl

theorem pay6_ix : k0_pay6 (F := Ideal) x0 v1 v4 (ix2 p e) = σ x0 v1 v4 p e 1 * σ x0 v1 v4 p e 2 := by
  unfold k0_pay6
  show FloatOps.mulf (FloatOps.logistic (extractStridedSlice S32x512 ![0, 512] (k0_pay4 (F := Ideal) x0 v1 v4) slices_S32x3072_o0_512_S32x512 (ix2 p e)))
    (FloatOps.logistic (extractStridedSlice S32x512 ![0, 1024] (k0_pay4 (F := Ideal) x0 v1 v4) slices_S32x3072_o0_1024_S32x512 (ix2 p e))) = _
  rw [slice_ix x0 v1 v4 512 1 rfl, slice_ix x0 v1 v4 1024 2 rfl]
  rfl

theorem pay7_ix : k0_pay7 (F := Ideal) x0 v1 v4 (ix2 p e) = σ x0 v1 v4 p e 3 := by
  unfold k0_pay7
  show FloatOps.logistic (extractStridedSlice S32x512 ![0, 1536] (k0_pay4 (F := Ideal) x0 v1 v4) slices_S32x3072_o0_1536_S32x512 (ix2 p e)) = _
  rw [slice_ix x0 v1 v4 1536 3 rfl]
  rfl

theorem pay8_ix : k0_pay8 (F := Ideal) x0 v1 v4 (ix2 p e) = σ x0 v1 v4 p e 4 := by
  unfold k0_pay8
  show FloatOps.logistic (extractStridedSlice S32x512 ![0, 2048] (k0_pay4 (F := Ideal) x0 v1 v4) slices_S32x3072_o0_2048_S32x512 (ix2 p e)) = _
  rw [slice_ix x0 v1 v4 2048 4 rfl]
  rfl

theorem pay9_ix : k0_pay9 (F := Ideal) x0 v1 v4 (ix2 p e) = σ x0 v1 v4 p e 5 := by
  unfold k0_pay9
  show FloatOps.logistic (extractStridedSlice S32x512 ![0, 2560] (k0_pay4 (F := Ideal) x0 v1 v4) slices_S32x3072_o0_2560_S32x512 (ix2 p e)) = _
  rw [slice_ix x0 v1 v4 2560 5 rfl]
  rfl

local notation "σ'" => σ x0 v1 v4 p e

/-- The largest of the three scores. -/
theorem pay10_ix : k0_pay10 (F := Ideal) x0 v1 v4 (ix2 p e) = Cert.StackStep.top (σ' 3) (σ' 4) (σ' 5) := by
  unfold k0_pay10
  show FloatOps.maximumf (FloatOps.maximumf (k0_pay7 (F := Ideal) x0 v1 v4 (ix2 p e)) (k0_pay8 (F := Ideal) x0 v1 v4 (ix2 p e)))
    (k0_pay9 (F := Ideal) x0 v1 v4 (ix2 p e)) = _
  rw [pay7_ix, pay8_ix, pay9_ix]
  rfl

theorem pay11_ix : k0_pay11 (F := Ideal) x0 v1 v4 (ix2 p e)
    = Ideal.exp (σ' 3 - Cert.StackStep.top (σ' 3) (σ' 4) (σ' 5)) := by
  unfold k0_pay11
  show FloatOps.exp (FloatOps.subf (k0_pay7 (F := Ideal) x0 v1 v4 (ix2 p e)) (k0_pay10 (F := Ideal) x0 v1 v4 (ix2 p e))) = _
  rw [pay7_ix, pay10_ix]
  rfl

theorem pay12_ix : k0_pay12 (F := Ideal) x0 v1 v4 (ix2 p e)
    = Ideal.exp (σ' 4 - Cert.StackStep.top (σ' 3) (σ' 4) (σ' 5)) := by
  unfold k0_pay12
  show FloatOps.exp (FloatOps.subf (k0_pay8 (F := Ideal) x0 v1 v4 (ix2 p e)) (k0_pay10 (F := Ideal) x0 v1 v4 (ix2 p e))) = _
  rw [pay8_ix, pay10_ix]
  rfl

theorem pay13_ix : k0_pay13 (F := Ideal) x0 v1 v4 (ix2 p e)
    = Ideal.exp (σ' 5 - Cert.StackStep.top (σ' 3) (σ' 4) (σ' 5)) := by
  unfold k0_pay13
  show FloatOps.exp (FloatOps.subf (k0_pay9 (F := Ideal) x0 v1 v4 (ix2 p e)) (k0_pay10 (F := Ideal) x0 v1 v4 (ix2 p e))) = _
  rw [pay9_ix, pay10_ix]
  rfl

/-- The softmax denominator, in the kernel's order of addition. -/
theorem pay14_ix : k0_pay14 (F := Ideal) x0 v1 v4 (ix2 p e)
    = (Ideal.exp (σ' 3 - Cert.StackStep.top (σ' 3) (σ' 4) (σ' 5)) + Ideal.exp (σ' 4 - Cert.StackStep.top (σ' 3) (σ' 4) (σ' 5)))
        + Ideal.exp (σ' 5 - Cert.StackStep.top (σ' 3) (σ' 4) (σ' 5)) := by
  unfold k0_pay14
  show FloatOps.addf (FloatOps.addf (k0_pay11 (F := Ideal) x0 v1 v4 (ix2 p e)) (k0_pay12 (F := Ideal) x0 v1 v4 (ix2 p e)))
    (k0_pay13 (F := Ideal) x0 v1 v4 (ix2 p e)) = _
  rw [pay11_ix, pay12_ix, pay13_ix]
  rfl

/-- The push share. -/
theorem pay15_ix : k0_pay15 (F := Ideal) x0 v1 v4 (ix2 p e) = Cert.StackStep.share (σ' 3) (σ' 3) (σ' 4) (σ' 5) := by
  unfold k0_pay15
  show FloatOps.divf (k0_pay11 (F := Ideal) x0 v1 v4 (ix2 p e)) (k0_pay14 (F := Ideal) x0 v1 v4 (ix2 p e)) = _
  rw [pay11_ix, pay14_ix]
  rfl

/-- The push share scaled by the decay gate. -/
theorem pay16_ix : k0_pay16 (F := Ideal) x0 v1 v4 (ix2 p e) = Cert.StackStep.share (σ' 3) (σ' 3) (σ' 4) (σ' 5) * σ' 0 := by
  unfold k0_pay16
  show FloatOps.mulf (k0_pay15 (F := Ideal) x0 v1 v4 (ix2 p e)) (k0_pay5 (F := Ideal) x0 v1 v4 (ix2 p e)) = _
  rw [pay15_ix, pay5_ix]
  rfl

/-- The pop share scaled by the decay gate. -/
theorem pay17_ix : k0_pay17 (F := Ideal) x0 v1 v4 (ix2 p e) = Cert.StackStep.share (σ' 4) (σ' 3) (σ' 4) (σ' 5) * σ' 0 := by
  unfold k0_pay17
  show FloatOps.mulf (FloatOps.divf (k0_pay12 (F := Ideal) x0 v1 v4 (ix2 p e)) (k0_pay14 (F := Ideal) x0 v1 v4 (ix2 p e)))
    (k0_pay5 (F := Ideal) x0 v1 v4 (ix2 p e)) = _
  rw [pay12_ix, pay14_ix, pay5_ix]
  rfl

/-- The keep share scaled by the decay gate. -/
theorem pay18_ix : k0_pay18 (F := Ideal) x0 v1 v4 (ix2 p e) = Cert.StackStep.share (σ' 5) (σ' 3) (σ' 4) (σ' 5) * σ' 0 := by
  unfold k0_pay18
  show FloatOps.mulf (FloatOps.divf (k0_pay13 (F := Ideal) x0 v1 v4 (ix2 p e)) (k0_pay14 (F := Ideal) x0 v1 v4 (ix2 p e)))
    (k0_pay5 (F := Ideal) x0 v1 v4 (ix2 p e)) = _
  rw [pay13_ix, pay14_ix, pay5_ix]
  rfl

/-! ## Layout steps between the `[32,512]` coefficients and the `[32,64,512]` block -/

/-- A `[32,512]` array viewed `[32,1,512]` reads, at `(p, u, e)`, the array at `(p, e)`. -/
theorem castIn_ix (v : FVec Ideal S32x512 .f32) (p : Fin 32) (u : Fin 1) (e : Fin 512) :
    shapeCast S32x1x512 v shapeCasts_S32x512_S32x1x512 (ix3 p u e) = v (ix2 p e) :=
  shapeCast_apply v _ _ _ (by
    have hu : u.val = 0 := by omega
    rw [Shape.rowMajor_val_two, Shape.rowMajor_val_three]
    show p.val * 512 + e.val = (p.val * 1 + u.val) * 512 + e.val
    rw [hu]; omega)

/-- A `[32,1,512]` array viewed `[32,512]` reads, at `(p, e)`, the array at `(p, 0, e)`. -/
theorem castOut_ix (w : FVec Ideal S32x1x512 .f32) (p : Fin 32) (e : Fin 512) :
    shapeCast S32x512 w shapeCasts_S32x1x512_S32x512 (ix2 p e) = w (ix3 p (0 : Fin 1) e) :=
  shapeCast_apply w _ _ _ (by
    rw [Shape.rowMajor_val_three, Shape.rowMajor_val_two]
    show (p.val * 1 + 0) * 512 + e.val = p.val * 512 + e.val
    omega)

/-- A `[32,512]` coefficient broadcast over the 64 slots reads, at `(p, s, e)`, the coefficient at `(p, e)`. -/
theorem bcast_ix (v : FVec Ideal S32x512 .f32) (p : Fin 32) (s : Fin 64) (e : Fin 512) :
    broadcastTo S32x64x512 (shapeCast S32x1x512 v shapeCasts_S32x512_S32x1x512) broadcasts_S32x1x512_S32x64x512 (ix3 p s e)
      = v (ix2 p e) := by
  refine (broadcastTo_apply _ broadcasts_S32x1x512_S32x64x512 (ix3 p s e) (ix3 p (0 : Fin 1) e) (fun a => by
    match a with
    | ⟨0, _⟩ => rfl
    | ⟨1, _⟩ => rfl
    | ⟨2, _⟩ => rfl)).trans ?_
  exact castIn_ix v p 0 e

/-- Row `o` of the stack block, cut out as a `[32,1,512]` array and viewed `[32,512]`, reads slot `o`. -/
theorem row_ix (v : Vec Ideal S32x64x512 .f32) (o : Nat) (k : Fin 64) (hk : k.val = o)
    (h : S32x64x512.Slices ![0, o, 0] S32x1x512) (p : Fin 32) (e : Fin 512) :
    shapeCast S32x512 (extractStridedSlice S32x1x512 ![0, o, 0] v h) shapeCasts_S32x1x512_S32x512 (ix2 p e)
      = v (ix3 p k e) := by
  rw [castOut_ix, slice3_axis1_apply o v h p (0 : Fin 1) e k (by rw [hk]; rfl)]

/-! ## The three stored payloads at an index -/

local notation "shP" => Cert.StackStep.share (σ' 3) (σ' 3) (σ' 4) (σ' 5)
local notation "shQ" => Cert.StackStep.share (σ' 4) (σ' 3) (σ' 4) (σ' 5)
local notation "shN" => Cert.StackStep.share (σ' 5) (σ' 3) (σ' 4) (σ' 5)

/-- The two shifted terms of an inner slot: the push share times the slot before plus the pop share times the slot after. -/
theorem pay19_ix (s : Fin 64) (h0 : s.val ≠ 0) (h63 : s.val ≠ 63) :
    k0_pay19 (F := Ideal) x0 v1 v4 v37 (ix3 p s e)
      = (shP * σ' 0) * v37 (ix3 p ⟨s.val - 1, by omega⟩ e) + (shQ * σ' 0) * v37 (ix3 p ⟨s.val + 1, by omega⟩ e) := by
  unfold k0_pay19
  show (addf
      (mulf (broadcastTo S32x64x512 (shapeCast S32x1x512 (k0_pay16 (F := Ideal) x0 v1 v4) shapeCasts_S32x512_S32x1x512) broadcasts_S32x1x512_S32x64x512)
        (dynamicRotate 1 1#32 none v37 rotates_S32x64x512_d1))
      (mulf (broadcastTo S32x64x512 (shapeCast S32x1x512 (k0_pay17 (F := Ideal) x0 v1 v4) shapeCasts_S32x512_S32x1x512) broadcasts_S32x1x512_S32x64x512)
        (dynamicRotate 1 63#32 none v37 rotates_S32x64x512_d1))) (ix3 p s e) = _
  rw [addf_apply, mulf_apply, mulf_apply, bcast_ix, bcast_ix, rot1_ix v37 p s e h0, rot63_ix v37 p s e h63, pay16_ix, pay17_ix]

/-- The whole-block payload at an inner slot `s` is the specification's `mix` there. -/
theorem pay1_apply (s : Fin 64) (h0 : s.val ≠ 0) (h63 : s.val ≠ 63) :
    k0_pay1 (F := Ideal) (k0_pay18 (F := Ideal) x0 v1 v4) v37 (k0_pay19 (F := Ideal) x0 v1 v4 v37) (ix3 p s e)
      = Cert.StackStep.mix (σ' 0) (σ' 1 * σ' 2) (σ' 3) (σ' 4) (σ' 5) (fun s' => v37 (ix3 p s' e)) s := by
  unfold k0_pay1
  show (addf (k0_pay19 (F := Ideal) x0 v1 v4 v37)
      (mulf (broadcastTo S32x64x512 (shapeCast S32x1x512 (k0_pay18 (F := Ideal) x0 v1 v4) shapeCasts_S32x512_S32x1x512) broadcasts_S32x1x512_S32x64x512)
        v37)) (ix3 p s e) = _
  rw [addf_apply, mulf_apply, bcast_ix, pay19_ix x0 v1 v4 v37 p e s h0 h63, pay18_ix]
  unfold Cert.StackStep.mix
  rw [dif_neg h0, dif_neg h63]

/-- The first boundary row's payload is the specification's `mix` at slot 0. -/
theorem pay2_apply :
    k0_pay2 (F := Ideal) (k0_pay6 (F := Ideal) x0 v1 v4) (k0_pay15 (F := Ideal) x0 v1 v4) (k0_pay17 (F := Ideal) x0 v1 v4)
        (k0_pay18 (F := Ideal) x0 v1 v4) v37 (ix3 p (0 : Fin 1) e)
      = Cert.StackStep.mix (σ' 0) (σ' 1 * σ' 2) (σ' 3) (σ' 4) (σ' 5) (fun s' => v37 (ix3 p s' e)) 0 := by
  unfold k0_pay2
  show shapeCast S32x1x512
      (addf
        (addf (mulf (k0_pay15 (F := Ideal) x0 v1 v4) (k0_pay6 (F := Ideal) x0 v1 v4))
          (mulf (k0_pay17 (F := Ideal) x0 v1 v4)
            (shapeCast S32x512 (extractStridedSlice S32x1x512 ![0, 1, 0] v37 slices_S32x64x512_o0_1_0_S32x1x512) shapeCasts_S32x1x512_S32x512)))
        (mulf (k0_pay18 (F := Ideal) x0 v1 v4)
          (shapeCast S32x512 (extractStridedSlice S32x1x512 ![0, 0, 0] v37 slices_S32x64x512_o0_0_0_S32x1x512) shapeCasts_S32x1x512_S32x512)))
      shapeCasts_S32x512_S32x1x512 (ix3 p (0 : Fin 1) e) = _
  rw [castIn_ix, addf_apply, addf_apply, mulf_apply, mulf_apply, mulf_apply,
    row_ix v37 1 1 rfl, row_ix v37 0 0 rfl, pay15_ix, pay6_ix, pay17_ix, pay18_ix]
  unfold Cert.StackStep.mix
  rw [dif_pos (show ((0 : Fin 64) : Nat) = 0 from rfl)]

/-- The last boundary row's payload is the specification's `mix` at slot 63. -/
theorem pay3_apply :
    k0_pay3 (F := Ideal) (k0_pay16 (F := Ideal) x0 v1 v4) (k0_pay18 (F := Ideal) x0 v1 v4) v37 (ix3 p (0 : Fin 1) e)
      = Cert.StackStep.mix (σ' 0) (σ' 1 * σ' 2) (σ' 3) (σ' 4) (σ' 5) (fun s' => v37 (ix3 p s' e)) 63 := by
  unfold k0_pay3
  show shapeCast S32x1x512
      (addf
        (mulf (k0_pay16 (F := Ideal) x0 v1 v4)
          (shapeCast S32x512 (extractStridedSlice S32x1x512 ![0, 62, 0] v37 slices_S32x64x512_o0_62_0_S32x1x512) shapeCasts_S32x1x512_S32x512))
        (mulf (k0_pay18 (F := Ideal) x0 v1 v4)
          (shapeCast S32x512 (extractStridedSlice S32x1x512 ![0, 63, 0] v37 slices_S32x64x512_o0_63_0_S32x1x512) shapeCasts_S32x1x512_S32x512)))
      shapeCasts_S32x512_S32x1x512 (ix3 p (0 : Fin 1) e) = _
  rw [castIn_ix, addf_apply, mulf_apply, mulf_apply,
    row_ix v37 62 62 rfl, row_ix v37 63 63 rfl, pay16_ix, pay18_ix]
  unfold Cert.StackStep.mix
  rw [dif_neg (show ¬((63 : Fin 64) : Nat) = 0 by decide), dif_pos (show ((63 : Fin 64) : Nat) = 63 from rfl)]

end Block

/-! ## The host's layout of the concatenated weight and bias -/

section HostLayout
variable {α : Type}

/-- A concatenation along the columns whose piece `n` is the transpose of `u`, `n·512` columns before it: at
    `(k, n·512 + e)` it reads `u` at `(e, k)`. -/
theorem wpiece (xs : List ((s : Shape) × (s.Idx → α))) (hc : Shape.Concatenates (xs.map (·.1)) S512x3072 1)
    (n : Nat) (hn : n < xs.length) (u : S512x512.Idx → α) (ht : S512x512.Transposes [1, 0] S512x512)
    (hx : xs[n] = ⟨S512x512, transpose S512x512 [1, 0] u ht⟩)
    (hpre : (((xs.take n).map (·.1)).map fun s => if h : s.rank = S512x3072.rank then s.size ((1 : Fin S512x3072.rank).cast h.symm) else 0).sum = n * 512)
    (k : Fin 512) (e : Fin 512) (c : Fin 3072) (hcv : c.val = n * 512 + e.val) :
    concatenate S512x3072 1 xs hc (ix2 k c) = u (ix2 e k) :=
  (concatenate_apply_piece 1 xs hc (ix2 k c) n hn S512x512 _ hx rfl (n * 512) hpre (ix2 k e)
    (fun b hb => by
      match b with
      | ⟨0, _⟩ => rfl
      | ⟨1, _⟩ => exact absurd rfl hb)
    hcv.symm).trans (transpose_ix2_apply u ht k e)

/-- The concatenated weight at `(k, g·512 + e)` is weight `g` at `(e, k)`. -/
theorem wcat_apply (u0 u1 u2 u3 u4 u5 : S512x512.Idx → α) (ht : S512x512.Transposes [1, 0] S512x512)
    (hc : Shape.Concatenates [S512x512, S512x512, S512x512, S512x512, S512x512, S512x512] S512x3072 1)
    (k : Fin 512) (g : Fin 6) (e : Fin 512) :
    concatenate S512x3072 1 [⟨S512x512, transpose S512x512 [1, 0] u0 ht⟩, ⟨S512x512, transpose S512x512 [1, 0] u1 ht⟩,
        ⟨S512x512, transpose S512x512 [1, 0] u2 ht⟩, ⟨S512x512, transpose S512x512 [1, 0] u3 ht⟩,
        ⟨S512x512, transpose S512x512 [1, 0] u4 ht⟩, ⟨S512x512, transpose S512x512 [1, 0] u5 ht⟩] hc
        (ix2 k ⟨g.val * 512 + e.val, by omega⟩)
      = (match g with | 0 => u0 | 1 => u1 | 2 => u2 | 3 => u3 | 4 => u4 | 5 => u5) (ix2 e k) := by
  match g with
  | 0 => refine wpiece _ _ 0 ?_ u0 ht ?_ ?_ k e _ ?_ <;> first | rfl | (show (0 : Nat) < 6; decide)
  | 1 => refine wpiece _ _ 1 ?_ u1 ht ?_ ?_ k e _ ?_ <;> first | rfl | (show (1 : Nat) < 6; decide)
  | 2 => refine wpiece _ _ 2 ?_ u2 ht ?_ ?_ k e _ ?_ <;> first | rfl | (show (2 : Nat) < 6; decide)
  | 3 => refine wpiece _ _ 3 ?_ u3 ht ?_ ?_ k e _ ?_ <;> first | rfl | (show (3 : Nat) < 6; decide)
  | 4 => refine wpiece _ _ 4 ?_ u4 ht ?_ ?_ k e _ ?_ <;> first | rfl | (show (4 : Nat) < 6; decide)
  | 5 => refine wpiece _ _ 5 ?_ u5 ht ?_ ?_ k e _ ?_ <;> first | rfl | (show (5 : Nat) < 6; decide)

/-- A concatenation of vectors whose piece `n` is `b`, `n·512` entries before it, viewed as one row: at
    `(0, n·512 + e)` it reads `b` at `e`. -/
theorem bpiece (xs : List ((s : Shape) × (s.Idx → α))) (hc : Shape.Concatenates (xs.map (·.1)) S3072 0)
    (hs : S3072.ShapeCasts S1x3072) (n : Nat) (hn : n < xs.length) (b : S512.Idx → α) (hx : xs[n] = ⟨S512, b⟩)
    (hpre : (((xs.take n).map (·.1)).map fun s => if h : s.rank = S3072.rank then s.size ((0 : Fin S3072.rank).cast h.symm) else 0).sum = n * 512)
    (e : Fin 512) (c : Fin 3072) (hcv : c.val = n * 512 + e.val) :
    shapeCast S1x3072 (concatenate S3072 0 xs hc) hs (ix2 (0 : Fin 1) c) = b (ix1 e) :=
  (shapeCast_a_1a_apply _ hs 0 c).trans
    (concatenate_apply_piece 0 xs hc (ix1 c) n hn S512 b hx rfl (n * 512) hpre (ix1 e)
      (fun a ha => by
        match a with
        | ⟨0, _⟩ => exact absurd rfl ha)
      hcv.symm)

/-- The concatenated bias, as one row, at `(0, g·512 + e)` is bias `g` at `e`. -/
theorem bcat_apply (b0 b1 b2 b3 b4 b5 : S512.Idx → α)
    (hc : Shape.Concatenates [S512, S512, S512, S512, S512, S512] S3072 0) (hs : S3072.ShapeCasts S1x3072)
    (g : Fin 6) (e : Fin 512) :
    shapeCast S1x3072 (concatenate S3072 0 [⟨S512, b0⟩, ⟨S512, b1⟩, ⟨S512, b2⟩, ⟨S512, b3⟩, ⟨S512, b4⟩, ⟨S512, b5⟩] hc) hs
        (ix2 (0 : Fin 1) ⟨g.val * 512 + e.val, by omega⟩)
      = (match g with | 0 => b0 | 1 => b1 | 2 => b2 | 3 => b3 | 4 => b4 | 5 => b5) (ix1 e) := by
  match g with
  | 0 => refine bpiece _ _ hs 0 ?_ b0 ?_ ?_ e _ ?_ <;> first | rfl | (show (0 : Nat) < 6; decide)
  | 1 => refine bpiece _ _ hs 1 ?_ b1 ?_ ?_ e _ ?_ <;> first | rfl | (show (1 : Nat) < 6; decide)
  | 2 => refine bpiece _ _ hs 2 ?_ b2 ?_ ?_ e _ ?_ <;> first | rfl | (show (2 : Nat) < 6; decide)
  | 3 => refine bpiece _ _ hs 3 ?_ b3 ?_ ?_ e _ ?_ <;> first | rfl | (show (3 : Nat) < 6; decide)
  | 4 => refine bpiece _ _ hs 4 ?_ b4 ?_ ?_ e _ ?_ <;> first | rfl | (show (4 : Nat) < 6; decide)
  | 5 => refine bpiece _ _ hs 5 ?_ b5 ?_ ?_ e _ ?_ <;> first | rfl | (show (5 : Nat) < 6; decide)

end HostLayout

end Cert.KernelIdeal.BlockValue

end
-- ==== Proof.KernelValue.lean ====
/-
  The idealized kernel's result array, index by index.

  The output's blocks tile the array along the batch axis: point t writes rows 32·t … 32·t+31 of all 64 slots and all
  512 features. Inside a block the three stores overlay — slot 63 and slot 0 rows over the whole block — which is
  exactly the three cases of the specification's column (`mix`); the six affine forms read off the concatenated weight
  and bias are the specification's six `logit`s, because column g·512+e of the concatenation is row e of the g-th
  weight matrix transposed, and entry g·512+e of the concatenated bias is entry e of the g-th bias.
-/
import proofs.«132333_j42477226557548_2_alg».proof.Proof.KernelIdealFrame
import proofs.«132333_j42477226557548_2_alg».proof.Proof.Spec
import proofs.«132333_j42477226557548_2_alg».proof.Proof.BlockValue
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.ArrayValue

open Cert.KernelIdeal Cert.KernelIdeal.Gen Cert.KernelIdeal.Frame Cert.KernelIdeal.BlockValue
open Idealize.ShloMosaic Idealize.ShloMosaic.TcCoe Idealize.ShloMosaic.ValueIdx
open Idealize.SL Idealize.SL.Sem
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 32 grid points: the input rows and the stack block move with the output
    block along the batch axis; the weight and the bias stay at block 0; the output's other block indices are 0. -/
theorem idx_facts : ∀ t : Fin cfg0.N,
    win0_0.index t (0 : Fin 2) = win0_4.index t (0 : Fin 3) ∧ win0_0.index t (1 : Fin 2) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 31 ∧ win0_4.index t (1 : Fin 3) = 0 ∧ win0_4.index t (2 : Fin 3) = 0 :=
  (by decide +kernel : ∀ t : Fin grid0.N, _)

/-- Every batch block is some point's. -/
theorem idx_onto : ∀ q : Fin 32, ∃ t : Fin cfg0.N, win0_4.index t = ![q.val, 0, 0] :=
  (by decide +kernel : ∀ q : Fin 32, ∃ t : Fin grid0.N, win0_4.index t = ![q.val, 0, 0])

/-- An index of the result array is in point `t`'s block iff each coordinate is in the block's range. -/
theorem mem_blk (t : Fin cfg0.N) (i : S1024x64x512.Idx) :
    i ∈ ((cfg0.win 4).blk t).view.set ↔ ∀ a : Fin 3, win0_4.index t a * S32x64x512.size a ≤ (i a).val ∧ (i a).val < win0_4.index t a * S32x64x512.size a + S32x64x512.size a := by
  show i ∈ ((View.whole main_v9).slice (win0_4.rect t)).set ↔ _
  rw [View.set_slice_whole, Rect.mem_set_unit]
  exact Iff.rfl

/-- Every index of the result array is in the block of the point that writes its batch row. -/
theorem covered (i : S1024x64x512.Idx) : ∃ t : Fin cfg0.N, (cfg0.win 4).flush t = true ∧ i ∈ ((cfg0.win 4).blk t).view.set := by
  have hi0 : (i 0).val < 1024 := (i 0).isLt
  have hi1 : (i 1).val < 64 := (i 1).isLt
  have hi2 : (i 2).val < 512 := (i 2).isLt
  obtain ⟨t, ht⟩ := idx_onto ⟨(i 0).val / 32, by omega⟩
  have q0 : win0_4.index t (0 : Fin 3) = (i 0).val / 32 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 32 ≤ (i 0).val ∧ (i 0).val < win0_4.index t (0 : Fin 3) * 32 + 32; omega
  | ⟨1, _⟩ => show win0_4.index t (1 : Fin 3) * 64 ≤ (i 1).val ∧ (i 1).val < win0_4.index t (1 : Fin 3) * 64 + 64; omega
  | ⟨2, _⟩ => show win0_4.index t (2 : Fin 3) * 512 ≤ (i 2).val ∧ (i 2).val < win0_4.index t (2 : Fin 3) * 512 + 512; omega

/-! ## The output block at an index -/

/-- Off the latest store's rectangle, the overlay is that of the earlier stores. -/
theorem canon_skip {S : Shape} {φ : EltTy} (r : Rect S) (w : r.shape.Idx → Elt Ideal φ) (L : List (View.Piece (Elt Ideal) S φ)) {y : S.Idx}
    (h : y ∉ r.set) : View.canon (⟨r, w⟩ :: L) y = View.canon L y :=
  View.canon_cons_of_not_mem ⟨r, w⟩ L h

/-- The three stores overlay into the specification's column: slot 63 from the last store, slot 0 from the one
    before, every other slot from the whole-block store. -/
theorem outBlock_apply (x0 : Vec Ideal S32x512 .f32) (x1 : Vec Ideal S32x64x512 .f32) (x2 : Vec Ideal S512x3072 .f32) (x3 : Vec Ideal S1x3072 .f32)
    (p : Fin 32) (s : Fin 64) (e : Fin 512) :
    outBlock x0 x1 x2 x3 (ix3 p s e)
      = Cert.StackStep.mix (σ x0 x2 x3 p e 0) (σ x0 x2 x3 p e 1 * σ x0 x2 x3 p e 2) (σ x0 x2 x3 p e 3) (σ x0 x2 x3 p e 4) (σ x0 x2 x3 p e 5)
          (fun s' => x1 (ix3 p s' e)) s := by
  unfold outBlock
  simp only [View.ld_unit_zero (S := S32x512) hz2, View.ld_unit_zero (S := S512x3072) hz2, View.ld_unit_zero (S := S1x3072) hz2,
    View.ld_unit_zero (S := S32x64x512) hz3]
  by_cases h63 : s.val = 63
  · obtain rfl : s = 63 := Fin.ext h63
    have hj : (ix3 p (63 : Fin 64) e : S32x64x512.Idx) = rBot.emb (ix3 p (0 : Fin 1) e) := by
      funext a; apply Fin.ext
      match a with
      | ⟨0, _⟩ => show p.val = 0 + 1 * p.val; omega
      | ⟨1, _⟩ => show 63 = 63 + 1 * 0; omega
      | ⟨2, _⟩ => show e.val = 0 + 1 * e.val; omega
    rw [hj, View.canon_cons_emb]
    exact pay3_apply x0 x2 x3 x1 p e
  · have n63 : (ix3 p s e : S32x64x512.Idx) ∉ rBot.set := by
      rw [Rect.mem_set_unit]
      intro h
      have := (h (1 : Fin 3)).1
      have hs : s.val < 64 := s.isLt
      change 63 ≤ s.val at this
      omega
    rw [canon_skip rBot _ _ n63]
    by_cases h0 : s.val = 0
    · obtain rfl : s = 0 := Fin.ext h0
      have hj : (ix3 p (0 : Fin 64) e : S32x64x512.Idx) = rTop.emb (ix3 p (0 : Fin 1) e) := by
        funext a; apply Fin.ext
        match a with
        | ⟨0, _⟩ => show p.val = 0 + 1 * p.val; omega
        | ⟨1, _⟩ => show 0 = 0 + 1 * 0; omega
        | ⟨2, _⟩ => show e.val = 0 + 1 * e.val; omega
      rw [hj, View.canon_cons_emb]
      exact pay2_apply x0 x2 x3 x1 p e
    · have n0 : (ix3 p s e : S32x64x512.Idx) ∉ rTop.set := by
        rw [Rect.mem_set_unit]
        intro h
        have := (h (1 : Fin 3)).2
        change s.val < 0 + 1 at this
        omega
      rw [canon_skip rTop _ _ n0, View.canon_unit_zero hz3]
      exact pay1_apply x0 x2 x3 x1 p e s h0 h63

/-- A block whose entries are the arrays' entries at batch row `r` gives the specification's column of that row. -/
theorem mix_of_blocks (x0 : Vec Ideal S32x512 .f32) (x1 : Vec Ideal S32x64x512 .f32) (x2 : Vec Ideal S512x3072 .f32) (x3 : Vec Ideal S1x3072 .f32)
    (x : Cert.StackStep.Rows) (st : Cert.StackStep.Stack) (W : Fin 6 → Cert.StackStep.Weight) (b : Fin 6 → Cert.StackStep.Bias)
    (r : Fin 1024) (p : Fin 32) (e : Fin 512)
    (h0 : ∀ k : Fin 512, x0 (ix2 p k) = x (ix2 r k))
    (h2 : ∀ (k : Fin 512) (g : Fin 6), x2 (ix2 k ⟨g.val * 512 + e.val, by omega⟩) = W g (ix2 e k))
    (h3 : ∀ g : Fin 6, x3 (ix2 (0 : Fin 1) ⟨g.val * 512 + e.val, by omega⟩) = b g (ix1 e))
    (h1 : ∀ s' : Fin 64, x1 (ix3 p s' e) = st (ix3 r s' e)) (s : Fin 64) :
    Cert.StackStep.mix (σ x0 x2 x3 p e 0) (σ x0 x2 x3 p e 1 * σ x0 x2 x3 p e 2) (σ x0 x2 x3 p e 3) (σ x0 x2 x3 p e 4) (σ x0 x2 x3 p e 5)
        (fun s' => x1 (ix3 p s' e)) s
      = Cert.StackStep.mix (Cert.StackStep.gate x (W 0) (b 0) r e) (Cert.StackStep.gate x (W 1) (b 1) r e * Cert.StackStep.gate x (W 2) (b 2) r e)
          (Cert.StackStep.gate x (W 3) (b 3) r e) (Cert.StackStep.gate x (W 4) (b 4) r e) (Cert.StackStep.gate x (W 5) (b 5) r e)
          (fun s' => st (ix3 r s' e)) s := by
  have hL : ∀ g : Fin 6, σ x0 x2 x3 p e g = Cert.StackStep.gate x (W g) (b g) r e := by
    intro g
    unfold σ L Cert.StackStep.gate Cert.StackStep.logit
    rw [h3 g]
    congr 2
    exact Finset.sum_congr rfl fun k _ => by rw [h0 k, h2 k g]
  simp only [hL, h1]

/-! ## The result array -/

section Array

variable (m : (ℓ : Loc nD τ sig) → Buf (Elt Ideal) ℓ) (ρ : Dev nD → PrngReg)

/-- The g-th weight matrix and bias vector as launched on core `c`. -/
def Wm (c : Dev nD) (g : Fin 6) : Cert.StackStep.Weight :=
  match g with
  | 0 => m ((c : Thread nD τ).loc main_arg2) | 1 => m ((c : Thread nD τ).loc main_arg4) | 2 => m ((c : Thread nD τ).loc main_arg6)
  | 3 => m ((c : Thread nD τ).loc main_arg8) | 4 => m ((c : Thread nD τ).loc main_arg10) | 5 => m ((c : Thread nD τ).loc main_arg12)
def bm (c : Dev nD) (g : Fin 6) : Cert.StackStep.Bias :=
  match g with
  | 0 => m ((c : Thread nD τ).loc main_arg3) | 1 => m ((c : Thread nD τ).loc main_arg5) | 2 => m ((c : Thread nD τ).loc main_arg7)
  | 3 => m ((c : Thread nD τ).loc main_arg9) | 4 => m ((c : Thread nD τ).loc main_arg11) | 5 => m ((c : Thread nD τ).loc main_arg13)

/-- The specification of the argument arrays as launched on core `c`, as one array. -/
def Gm (c : Dev nD) : S1024x64x512.Idx → EReal := fun i =>
  Cert.StackStep.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    (i 0) (i 1) (i 2)

/-- The four input blocks at point `t`, at their literal shapes. -/
def blkX (c : Dev nD) (t : Fin cfg0.N) : Vec Ideal S32x512 .f32 := iblk m c 0 t
def blkS (c : Dev nD) (t : Fin cfg0.N) : Vec Ideal S32x64x512 .f32 := iblk m c 1 t
def blkW (c : Dev nD) (t : Fin cfg0.N) : Vec Ideal S512x3072 .f32 := iblk m c 2 t
def blkB (c : Dev nD) (t : Fin cfg0.N) : Vec Ideal S1x3072 .f32 := iblk m c 3 t

/-- The batch row that row `p` of point `t`'s block is. -/
def row (t : Fin cfg0.N) (p : Fin 32) : Fin 1024 :=
  ⟨win0_4.index t (0 : Fin 3) * 32 + p.val, by have := (idx_facts t).2.2.2.2.2.2.2.2.2.1; have := p.isLt; omega⟩

/-- The region finds the concatenated weight: column g·512+e is row e of the g-th weight matrix. -/
theorem V_wcat (c : Dev nD) (k : Fin 512) (g : Fin 6) (e : Fin 512) :
    (V m c main_v6 : S512x3072.Idx → EReal) (ix2 k ⟨g.val * 512 + e.val, by omega⟩) = Wm m c g (ix2 e k) := by
  have h : (V m c main_v6 : S512x3072.Idx → EReal)
      = concatenate S512x3072 1 [⟨S512x512, transpose S512x512 [1, 0] (m ((c : Thread nD τ).loc main_arg2)) transposes_S512x512_S512x512_1_0⟩,
          ⟨S512x512, transpose S512x512 [1, 0] (m ((c : Thread nD τ).loc main_arg4)) transposes_S512x512_S512x512_1_0⟩,
          ⟨S512x512, transpose S512x512 [1, 0] (m ((c : Thread nD τ).loc main_arg6)) transposes_S512x512_S512x512_1_0⟩,
          ⟨S512x512, transpose S512x512 [1, 0] (m ((c : Thread nD τ).loc main_arg8)) transposes_S512x512_S512x512_1_0⟩,
          ⟨S512x512, transpose S512x512 [1, 0] (m ((c : Thread nD τ).loc main_arg10)) transposes_S512x512_S512x512_1_0⟩,
          ⟨S512x512, transpose S512x512 [1, 0] (m ((c : Thread nD τ).loc main_arg12)) transposes_S512x512_S512x512_1_0⟩]
          concatenates_S512x512_S512x512_S512x512_S512x512_S512x512_S512x512_S512x3072_d1 := by
    dsimp only [V, hostOps0]; after_results; rfl
  rw [h, wcat_apply]
  match g with
  | 0 => rfl | 1 => rfl | 2 => rfl | 3 => rfl | 4 => rfl | 5 => rfl

/-- The region finds the concatenated bias as one row: entry g·512+e is entry e of the g-th bias. -/
theorem V_bcat (c : Dev nD) (g : Fin 6) (e : Fin 512) :
    (V m c main_v8 : S1x3072.Idx → EReal) (ix2 (0 : Fin 1) ⟨g.val * 512 + e.val, by omega⟩) = bm m c g (ix1 e) := by
  have h : (V m c main_v8 : S1x3072.Idx → EReal)
      = shapeCast S1x3072 (concatenate S3072 0 [⟨S512, m ((c : Thread nD τ).loc main_arg3)⟩, ⟨S512, m ((c : Thread nD τ).loc main_arg5)⟩,
          ⟨S512, m ((c : Thread nD τ).loc main_arg7)⟩, ⟨S512, m ((c : Thread nD τ).loc main_arg9)⟩, ⟨S512, m ((c : Thread nD τ).loc main_arg11)⟩,
          ⟨S512, m ((c : Thread nD τ).loc main_arg13)⟩] concatenates_S512_S512_S512_S512_S512_S512_S3072_d0) shapeCasts_S3072_S1x3072 := by
    dsimp only [V, hostOps0]; after_results; rfl
  rw [h, bcat_apply]
  match g with
  | 0 => rfl | 1 => rfl | 2 => rfl | 3 => rfl | 4 => rfl | 5 => rfl

/-- Row `p` of the input block at point `t` is batch row `row t p` of the input. -/
theorem blkX_apply (c : Dev nD) (t : Fin cfg0.N) (p : Fin 32) (k : Fin 512) :
    blkX m c t (ix2 p k) = m ((c : Thread nD τ).loc main_arg0) (ix2 (row t p) k) := by
  obtain ⟨e0, e1, -⟩ := idx_facts t
  show V m c main_arg0 (((cfg0.win 0).blk t).view.emb (ix2 p k)) = _
  rw [V_main_arg0]
  congr 1
  funext a; apply Fin.ext
  match a with
  | ⟨0, _⟩ => show win0_0.index t (0 : Fin 2) * 32 + 1 * p.val = win0_4.index t (0 : Fin 3) * 32 + p.val; omega
  | ⟨1, _⟩ => show win0_0.index t (1 : Fin 2) * 512 + 1 * k.val = k.val; omega

/-- Row `p` of the stack block at point `t` is batch row `row t p` of the stack. -/
theorem blkS_apply (c : Dev nD) (t : Fin cfg0.N) (p : Fin 32) (s : Fin 64) (e : Fin 512) :
    blkS m c t (ix3 p s e) = m ((c : Thread nD τ).loc main_arg1) (ix3 (row t p) s e) := by
  obtain ⟨-, -, e2, e3, e4, -⟩ := idx_facts t
  show V m c main_arg1 (((cfg0.win 1).blk t).view.emb (ix3 p s e)) = _
  rw [V_main_arg1]
  congr 1
  funext a; apply Fin.ext
  match a with
  | ⟨0, _⟩ => show win0_1.index t (0 : Fin 3) * 32 + 1 * p.val = win0_4.index t (0 : Fin 3) * 32 + p.val; omega
  | ⟨1, _⟩ => show win0_1.index t (1 : Fin 3) * 64 + 1 * s.val = s.val; omega
  | ⟨2, _⟩ => show win0_1.index t (2 : Fin 3) * 512 + 1 * e.val = e.val; omega

/-- The weight block is the whole concatenated weight at every point. -/
theorem blkW_apply (c : Dev nD) (t : Fin cfg0.N) (k : Fin 512) (g : Fin 6) (e : Fin 512) :
    blkW m c t (ix2 k ⟨g.val * 512 + e.val, by omega⟩) = Wm m c g (ix2 e k) := by
  obtain ⟨-, -, -, -, -, e5, e6, -⟩ := idx_facts t
  have hh : ((cfg0.win 2).blk t).view.emb (ix2 k (⟨g.val * 512 + e.val, by omega⟩ : Fin 3072)) = ix2 k (⟨g.val * 512 + e.val, by omega⟩ : Fin 3072) := by
    funext a; apply Fin.ext
    match a with
    | ⟨0, _⟩ => show win0_2.index t (0 : Fin 2) * 512 + 1 * k.val = k.val; omega
    | ⟨1, _⟩ => show win0_2.index t (1 : Fin 2) * 3072 + 1 * (g.val * 512 + e.val) = g.val * 512 + e.val; omega
  show V m c main_v6 (((cfg0.win 2).blk t).view.emb (ix2 k (⟨g.val * 512 + e.val, by omega⟩ : Fin 3072))) = _
  rw [hh]
  exact V_wcat m c k g e

/-- The bias block is the whole concatenated bias row at every point. -/
theorem blkB_apply (c : Dev nD) (t : Fin cfg0.N) (g : Fin 6) (e : Fin 512) :
    blkB m c t (ix2 (0 : Fin 1) ⟨g.val * 512 + e.val, by omega⟩) = bm m c g (ix1 e) := by
  obtain ⟨-, -, -, -, -, -, -, e7, e8, -⟩ := idx_facts t
  have hh : ((cfg0.win 3).blk t).view.emb (ix2 (0 : Fin 1) (⟨g.val * 512 + e.val, by omega⟩ : Fin 3072)) = ix2 (0 : Fin 1) (⟨g.val * 512 + e.val, by omega⟩ : Fin 3072) := by
    funext a; apply Fin.ext
    match a with
    | ⟨0, _⟩ => show win0_3.index t (0 : Fin 2) * 1 + 1 * 0 = 0; omega
    | ⟨1, _⟩ => show win0_3.index t (1 : Fin 2) * 3072 + 1 * (g.val * 512 + e.val) = g.val * 512 + e.val; omega
  show V m c main_v8 (((cfg0.win 3).blk t).view.emb (ix2 (0 : Fin 1) (⟨g.val * 512 + e.val, by omega⟩ : Fin 3072))) = _
  rw [hh]
  exact V_bcat m c g e

/-- An index of point `t`'s block, placed in the result array. -/
theorem emb_out (t : Fin cfg0.N) (p : Fin 32) (s : Fin 64) (e : Fin 512) :
    ((cfg0.win 4).blk t).view.emb (ix3 p s e) = ix3 (row t p) s e := by
  obtain ⟨-, -, -, -, -, -, -, -, -, e9, e10, e11⟩ := idx_facts t
  funext a; apply Fin.ext
  match a with
  | ⟨0, _⟩ => show win0_4.index t (0 : Fin 3) * 32 + 1 * p.val = win0_4.index t (0 : Fin 3) * 32 + p.val; omega
  | ⟨1, _⟩ => show win0_4.index t (1 : Fin 3) * 64 + 1 * s.val = s.val; omega
  | ⟨2, _⟩ => show win0_4.index t (2 : Fin 3) * 512 + 1 * e.val = e.val; omega

/-- What point `t` writes back is block `t` of the specification. -/
theorem flushed_eq (c : Dev nD) (t : Fin cfg0.N) :
    (dats m 0 c).flushed 4 t = ((cfg0.win 4).blk t).view.read (Elt Ideal) (Gm m c) := by
  show (cfg0.win 4).cut (grid0.coords t) ((dats m 0 c).after 4 t) = _
  rw [after0_4]
  funext j
  obtain ⟨p, s, e, rfl⟩ : ∃ (p : Fin 32) (s : Fin 64) (e : Fin 512), j = ix3 p s e := ⟨j 0, j 1, j 2, eq_ix3 j⟩
  show outBlock (blkX m c t) (blkS m c t) (blkW m c t) (blkB m c t) (ix3 p s e) = Gm m c (((cfg0.win 4).blk t).view.emb (ix3 p s e))
  rw [outBlock_apply, emb_out]
  exact mix_of_blocks (blkX m c t) (blkS m c t) (blkW m c t) (blkB m c t) (m ((c : Thread nD τ).loc main_arg0)) (m ((c : Thread nD τ).loc main_arg1))
    (Wm m c) (bm m c) (row t p) p e (blkX_apply m c t p) (fun k g => blkW_apply m c t k g e) (fun g => blkB_apply m c t g e)
    (fun s' => blkS_apply m c t p s' e) s

/-- The result array after the run is the specification. -/
theorem final (c : Dev nD) : (dats m 0 c).arrAt 4 cfg0.N = Gm m c :=
  (dats m 0 c).arrAt_eq_of_cover 4 (Gm m c) (fun t _ => flushed_eq m c t) covered

/-- The run, read: the result array at the specification, the fourteen arguments unchanged. -/
theorem run : θ_run defs (onTc (τ := τ) (main (F := Ideal))) ⟨m, fun _ => 0, ρ⟩ fun r => ∀ c : Dev nD,
      r.2.mem ((c : Thread nD τ).loc main_v9) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩)
    (run_main m ρ)

end Array

end Cert.KernelIdeal.ArrayValue

end
-- ==== Proof.RefValue.lean ====
/-
  The reference program's result, read at an index, is the specification `Cert.StackStep.G`.

  The reference computes one step of a differentiable stack in 110 host operations. Read at a batch row `r`, a
  slot `s` and a feature `e`:

  * each of its six linear-plus-logistic stages is  1 / (1 + exp (-(x r · W e + b e))),  which is the logistic
    function of the affine form by definition (`v10_apply` and the five stages equal to it term for term);
  * the decayed stack is the decay gate times the old stack, with one zero slot appended (`v14_lt`, `v14_last`);
    the pushed, popped and kept columns are that padded stack shifted down, shifted up, and as it is, the pushed
    column's slot 0 holding the new value (`v37_zero`, `v37_succ`, `v38_lt`, `v38_last`, `v39_apply`);
  * the three action scores are normalised by a softmax: the largest score is a fold of the maximum from minus
    infinity (`v71_apply`), a further maximum with minus infinity changes nothing (`v73_apply`), and the
    denominator is zero plus the sum of the three shifted exponentials (`v78_apply`), so each normalised score is a
    `share` (`v85_apply`, `v87_apply`, `v90_apply`);
  * the result is the three shares times the three columns, added up (`result_eq`).

  Against the specification only the ring laws of the extended reals are needed: the reference multiplies a share
  into (gate · old), the specification has (share · gate) · old; the new value's two factors come in the other order;
  at the last slot the popped column is the appended zero, and share · 0 = 0. No finiteness is assumed anywhere.
-/
import proofs.«132333_j42477226557548_2_alg».proof.Proof.Gen.ReferenceIdeal.Read
import proofs.«132333_j42477226557548_2_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.StackStep
open scoped BigOperators

variable (x : Rows) (st : Stack) (Wg : Weight) (bg : Bias) (Wi : Weight) (bi : Bias) (Wd : Weight) (bd : Bias)
  (Wp : Weight) (bp : Bias) (Wq : Weight) (bq : Bias) (Wn : Weight) (bn : Bias)

/-! ## The six gates

Each of the six linear-plus-logistic stages is the same term over its own weight and bias: one over one plus the
exponential of the negated affine form. That is the logistic function by definition. -/

/-- The logistic function spelled with the operations the reference uses: one over one plus the exponential of the
    negated argument, the two ones written as their f32 words. -/
theorem logistic_spelled (z : EReal) :
    Ideal.div (Ideal.ofBits .f32 0x3F800000#32) (Ideal.ofBits .f32 0x3F800000#32 + Ideal.exp (-z)) = Ideal.logistic z := by
  rw [Ideal.ofBits_one_f32]; rfl

/-- The first linear-plus-logistic stage read at an index: the gate of the row and feature the index names. -/
theorem v10_apply (W : Weight) (b : Bias) (i : S1024x1x512.Idx) :
    val_main_v10 (F := Ideal) x W b i = gate x W b (i 0) (i 2) := by
  rw [val_main_v10_apply, val_main_v9_apply, val_main_cst_0_apply, val_main_v8_apply, val_main_v7_apply,
    val_main_cst_apply, val_main_v6_apply, val_main_v5_apply, val_main_v4_apply, val_main_v1_apply,
    val_main_v3_apply, val_main_v2_apply]
  simp only [val_main_v0_apply]
  simp only [Ideal.hostDivf_def, Ideal.ofBits_def, Ideal.addf_def, Ideal.hostUnary_exp_def, Ideal.hostNegf_def, Ideal.negf_def]
  rw [logistic_spelled]
  unfold gate logit
  have e0 : ∀ k : Fin 512, idx_main_v0 (lidx_main_v1 i k) = ix2 (i 0) k := fun k => by
    funext a; match a with | ⟨0, _⟩ => rfl | ⟨1, _⟩ => rfl
  have e1 : ∀ k : Fin 512, ridx_main_v1 i k = ix2 (i 2) k := fun k => by
    funext a; match a with | ⟨0, _⟩ => rfl | ⟨1, _⟩ => rfl
  have e2 : idx_main_v2 (idx_main_v3 i) = ix1 (i 2) := by
    funext a; match a with | ⟨0, _⟩ => rfl
  simp only [e0, e1, e2]
  rfl

/-- The other five stages are the same term as the first, over their own weight and bias. -/
theorem v24_eq (W : Weight) (b : Bias) : val_main_v24 (F := Ideal) x W b = val_main_v10 (F := Ideal) x W b := rfl
theorem v34_eq (W : Weight) (b : Bias) : val_main_v34 (F := Ideal) x W b = val_main_v10 (F := Ideal) x W b := rfl
theorem v49_eq (W : Weight) (b : Bias) : val_main_v49 (F := Ideal) x W b = val_main_v10 (F := Ideal) x W b := rfl
theorem v59_eq (W : Weight) (b : Bias) : val_main_v59 (F := Ideal) x W b = val_main_v10 (F := Ideal) x W b := rfl
theorem v69_eq (W : Weight) (b : Bias) : val_main_v69 (F := Ideal) x W b = val_main_v10 (F := Ideal) x W b := rfl

theorem v24_apply (W : Weight) (b : Bias) (i : S1024x1x512.Idx) :
    val_main_v24 (F := Ideal) x W b i = gate x W b (i 0) (i 2) := by rw [v24_eq]; exact v10_apply x W b i
theorem v34_apply (W : Weight) (b : Bias) (i : S1024x1x512.Idx) :
    val_main_v34 (F := Ideal) x W b i = gate x W b (i 0) (i 2) := by rw [v34_eq]; exact v10_apply x W b i
theorem v49_apply (W : Weight) (b : Bias) (i : S1024x1x512.Idx) :
    val_main_v49 (F := Ideal) x W b i = gate x W b (i 0) (i 2) := by rw [v49_eq]; exact v10_apply x W b i
theorem v59_apply (W : Weight) (b : Bias) (i : S1024x1x512.Idx) :
    val_main_v59 (F := Ideal) x W b i = gate x W b (i 0) (i 2) := by rw [v59_eq]; exact v10_apply x W b i
theorem v69_apply (W : Weight) (b : Bias) (i : S1024x1x512.Idx) :
    val_main_v69 (F := Ideal) x W b i = gate x W b (i 0) (i 2) := by rw [v69_eq]; exact v10_apply x W b i

/-! ## The decayed stack with a zero slot appended -/

/-- The decayed stack at a slot: the decay gate times the old stack there. -/
theorem v12_apply (r : Fin 1024) (s : Fin 64) (e : Fin 512) :
    val_main_v12 (F := Ideal) x st Wg bg (ix3 r s e) = gate x Wg bg r e * st (ix3 r s e) := by
  rw [val_main_v12_apply, val_main_v11_apply, v10_apply]
  rfl

/-- The padded stack below slot 64 is the decayed stack. -/
theorem v14_lt (r : Fin 1024) (s : Fin 65) (e : Fin 512) (s' : Fin 64) (h : s'.val = s.val) :
    val_main_v14 (F := Ideal) x st Wg bg (ix3 r s e) = gate x Wg bg r e * st (ix3 r s' e) := by
  unfold val_main_v14
  refine (concatenate_pair_apply_left (t := S1024x65x512) (s₁ := S1024x64x512) (s₂ := S1024x1x512) 1 _ _ concatenates_S1024x64x512_S1024x1x512_S1024x65x512_d1
    (ix3 r s e) rfl (ix3 r s' e) ?_).trans ?_
  · intro b
    match b with
    | ⟨0, _⟩ => rfl
    | ⟨1, _⟩ => exact h
    | ⟨2, _⟩ => rfl
  · exact v12_apply x st Wg bg r s' e

/-- The padded stack at slot 64 is zero. -/
theorem v14_last (r : Fin 1024) (s : Fin 65) (e : Fin 512) (h : s.val = 64) :
    val_main_v14 (F := Ideal) x st Wg bg (ix3 r s e) = 0 := by
  unfold val_main_v14
  refine (concatenate_pair_apply_right (t := S1024x65x512) (s₁ := S1024x64x512) (s₂ := S1024x1x512) 1 _ _ concatenates_S1024x64x512_S1024x1x512_S1024x65x512_d1
    (ix3 r s e) rfl rfl (ix3 r (0 : Fin 1) e) ?_ ?_).trans ?_
  · intro b hb
    match b, hb with
    | ⟨0, _⟩, _ => rfl
    | ⟨1, _⟩, hb => exact absurd rfl hb
    | ⟨2, _⟩, _ => rfl
  · show 0 + 64 = s.val
    omega
  · rw [val_main_v13_apply, val_main_cst_1_apply]
    exact Ideal.ofBits_zero_f32

/-! ## Push, pop and keep at a slot -/

/-- The pushed column at slot 0 is the new value: the data gate times the input gate. -/
theorem v37_zero (r : Fin 1024) (s : Fin 64) (e : Fin 512) (h : s.val = 0) :
    val_main_v37 (F := Ideal) x st Wg bg Wi bi Wd bd (ix3 r s e) = gate x Wd bd r e * gate x Wi bi r e := by
  unfold val_main_v37
  refine (concatenate_pair_apply_left (t := S1024x64x512) (s₁ := S1024x1x512) (s₂ := S1024x63x512) 1 _ _ concatenates_S1024x1x512_S1024x63x512_S1024x64x512_d1
    (ix3 r s e) rfl (ix3 r (0 : Fin 1) e) ?_).trans ?_
  · intro b
    match b with
    | ⟨0, _⟩ => rfl
    | ⟨1, _⟩ => exact h.symm
    | ⟨2, _⟩ => rfl
  · rw [val_main_v35_apply, v34_apply, v24_apply]
    rfl

/-- The pushed column at a later slot is the decayed stack one slot down. -/
theorem v37_succ (r : Fin 1024) (s : Fin 64) (e : Fin 512) (s' : Fin 64) (h : s'.val + 1 = s.val) :
    val_main_v37 (F := Ideal) x st Wg bg Wi bi Wd bd (ix3 r s e) = gate x Wg bg r e * st (ix3 r s' e) := by
  have hs := s.isLt
  unfold val_main_v37
  refine (concatenate_pair_apply_right (t := S1024x64x512) (s₁ := S1024x1x512) (s₂ := S1024x63x512) 1 _ _ concatenates_S1024x1x512_S1024x63x512_S1024x64x512_d1
    (ix3 r s e) rfl rfl (ix3 r (⟨s'.val, by omega⟩ : Fin 63) e) ?_ ?_).trans ?_
  · intro b hb
    match b, hb with
    | ⟨0, _⟩, _ => rfl
    | ⟨1, _⟩, hb => exact absurd rfl hb
    | ⟨2, _⟩, _ => rfl
  · show s'.val + 1 = s.val
    exact h
  · rw [val_main_v36_apply]
    have e1 : idx_main_v36 (ix3 r (⟨s'.val, by omega⟩ : Fin 63) e) = ix3 r (⟨s'.val, by omega⟩ : Fin 65) e := by
      funext a; match a with | ⟨0, _⟩ => rfl | ⟨1, _⟩ => rfl | ⟨2, _⟩ => rfl
    rw [e1]
    exact v14_lt x st Wg bg r _ e s' rfl

/-- The popped column below the last slot is the decayed stack one slot up. -/
theorem v38_lt (r : Fin 1024) (s : Fin 64) (e : Fin 512) (s' : Fin 64) (h : s'.val = s.val + 1) :
    val_main_v38 (F := Ideal) x st Wg bg (ix3 r s e) = gate x Wg bg r e * st (ix3 r s' e) := by
  have hs := s'.isLt
  rw [val_main_v38_apply]
  have e1 : idx_main_v38 (ix3 r s e) = ix3 r (⟨1 + s.val, by omega⟩ : Fin 65) e := by
    funext a; match a with | ⟨0, _⟩ => rfl | ⟨1, _⟩ => rfl | ⟨2, _⟩ => rfl
  rw [e1]
  exact v14_lt x st Wg bg r _ e s' (by show s'.val = 1 + s.val; omega)

/-- The popped column at the last slot is the appended zero. -/
theorem v38_last (r : Fin 1024) (s : Fin 64) (e : Fin 512) (h : s.val = 63) :
    val_main_v38 (F := Ideal) x st Wg bg (ix3 r s e) = 0 := by
  rw [val_main_v38_apply]
  have e1 : idx_main_v38 (ix3 r s e) = ix3 r (⟨1 + s.val, by omega⟩ : Fin 65) e := by
    funext a; match a with | ⟨0, _⟩ => rfl | ⟨1, _⟩ => rfl | ⟨2, _⟩ => rfl
  rw [e1]
  exact v14_last x st Wg bg r _ e (by show 1 + s.val = 64; omega)

/-- The kept column is the decayed stack at the same slot. -/
theorem v39_apply (r : Fin 1024) (s : Fin 64) (e : Fin 512) :
    val_main_v39 (F := Ideal) x st Wg bg (ix3 r s e) = gate x Wg bg r e * st (ix3 r s e) := by
  have hs := s.isLt
  rw [val_main_v39_apply]
  have e1 : idx_main_v39 (ix3 r s e) = ix3 r (⟨s.val, by omega⟩ : Fin 65) e := by
    funext a; match a with | ⟨0, _⟩ => rfl | ⟨1, _⟩ => rfl | ⟨2, _⟩ => rfl
  rw [e1]
  exact v14_lt x st Wg bg r _ e s rfl

/-! ## The three softmax shares -/

/-- The f32 word of minus infinity is the bottom of the extended reals. -/
theorem ofBits_neg_inf : Ideal.ofBits .f32 0xFF800000#32 = (⊥ : EReal) := by
  simp [Ideal.ofBits, Ideal.ieee]

/-- A fold of the maximum over three values from below is the largest of them. -/
theorem fold_max_fin3 (g : Fin 3 → EReal) :
    (Finset.univ : Finset (Fin 3)).fold max (⊥ : EReal) g = max (max (g 0) (g 1)) (g 2) := by
  simp only [Fin.univ_succ, Finset.fold_cons, Finset.fold_map, Finset.univ_unique, Finset.fold_singleton]
  show max (g 0) (max (g 1) (max (g 2) ⊥)) = _
  rw [max_eq_left (bot_le : (⊥ : EReal) ≤ g 2), max_assoc]

/-- The three scores side by side: the push score first. -/
theorem v70_zero (r : Fin 1024) (e : Fin 512) :
    val_main_v70 (F := Ideal) x Wp bp Wq bq Wn bn (ix3 r (0 : Fin 3) e) = gate x Wp bp r e := by
  unfold val_main_v70
  refine (concatenate_apply_piece (t := S1024x3x512) 1 _ _
    (ix3 r (0 : Fin 3) e) 0 (by show 0 < 3; omega) S1024x1x512 _ rfl rfl 0 rfl (ix3 r (0 : Fin 1) e) ?_ ?_).trans ?_
  · intro b hb
    match b, hb with
    | ⟨0, _⟩, _ => rfl
    | ⟨1, _⟩, hb => exact absurd rfl hb
    | ⟨2, _⟩, _ => rfl
  · rfl
  · exact v49_apply x Wp bp _

/-- The pop score second. -/
theorem v70_one (r : Fin 1024) (e : Fin 512) :
    val_main_v70 (F := Ideal) x Wp bp Wq bq Wn bn (ix3 r (1 : Fin 3) e) = gate x Wq bq r e := by
  unfold val_main_v70
  refine (concatenate_apply_piece (t := S1024x3x512) 1 _ _
    (ix3 r (1 : Fin 3) e) 1 (by show 1 < 3; omega) S1024x1x512 _ rfl rfl 1 rfl (ix3 r (0 : Fin 1) e) ?_ ?_).trans ?_
  · intro b hb
    match b, hb with
    | ⟨0, _⟩, _ => rfl
    | ⟨1, _⟩, hb => exact absurd rfl hb
    | ⟨2, _⟩, _ => rfl
  · rfl
  · exact v59_apply x Wq bq _

/-- The keep score third. -/
theorem v70_two (r : Fin 1024) (e : Fin 512) :
    val_main_v70 (F := Ideal) x Wp bp Wq bq Wn bn (ix3 r (2 : Fin 3) e) = gate x Wn bn r e := by
  unfold val_main_v70
  refine (concatenate_apply_piece (t := S1024x3x512) 1 _ _
    (ix3 r (2 : Fin 3) e) 2 (by show 2 < 3; omega) S1024x1x512 _ rfl rfl 2 rfl (ix3 r (0 : Fin 1) e) ?_ ?_).trans ?_
  · intro b hb
    match b, hb with
    | ⟨0, _⟩, _ => rfl
    | ⟨1, _⟩, hb => exact absurd rfl hb
    | ⟨2, _⟩, _ => rfl
  · rfl
  · exact v69_apply x Wn bn _

/-- The reduce with a maximum body from minus infinity over the three scores is their largest. -/
theorem v71_apply (r : Fin 1024) (e : Fin 512) :
    val_main_v71 (F := Ideal) x Wp bp Wq bq Wn bn (ix2 r e)
      = top (gate x Wp bp r e) (gate x Wq bq r e) (gate x Wn bn r e) := by
  unfold val_main_v71
  have hR : S1024x3x512.Reduces [1] S1024x512 := by decide
  rw [Host.reduce_eq_fold_single FloatOps.maximumf _ _ reducesTo_S1024x3x512_S1024x512_d1 hR h_S_]
  have hl : ∀ k : Fin 3, hR.lift (ix2 r e) k = ix3 r k e := fun k => by
    funext c; apply Fin.ext
    match c with
    | ⟨0, _⟩ => rfl
    | ⟨1, _⟩ => rfl
    | ⟨2, _⟩ => rfl
  have hf : (val_main_v70 (F := Ideal) x Wp bp Wq bq Wn bn ∘ hR.lift (ix2 r e))
      = fun k : Fin 3 => val_main_v70 (F := Ideal) x Wp bp Wq bq Wn bn (ix3 r k e) :=
    funext fun k => congrArg _ (hl k)
  have hb : val_main_cst_12 (F := Ideal) (Shape.Idx.first h_S_) = (⊥ : EReal) := ofBits_neg_inf
  refine (congrArg₂ (fun b f => Finset.fold max b f (Finset.univ : Finset (Fin 3))) hb hf).trans ?_
  rw [fold_max_fin3, v70_zero, v70_one, v70_two]
  rfl

/-- The further maximum with minus infinity changes nothing. -/
theorem v73_apply (r : Fin 1024) (e : Fin 512) :
    val_main_v73 (F := Ideal) x Wp bp Wq bq Wn bn (ix2 r e)
      = top (gate x Wp bp r e) (gate x Wq bq r e) (gate x Wn bn r e) := by
  rw [val_main_v73_apply, val_main_v72_apply, val_main_cst_13_apply, v71_apply]
  show max (Ideal.ofBits .f32 0xFF800000#32) _ = _
  rw [ofBits_neg_inf]
  exact max_eq_right bot_le

/-- The shifted, exponentiated score at a position: the exponential of that score less the largest. -/
theorem v77_apply (r : Fin 1024) (k : Fin 3) (e : Fin 512) :
    val_main_v77 (F := Ideal) x Wp bp Wq bq Wn bn (ix3 r k e)
      = Ideal.exp (val_main_v70 (F := Ideal) x Wp bp Wq bq Wn bn (ix3 r k e)
          - top (gate x Wp bp r e) (gate x Wq bq r e) (gate x Wn bn r e)) := by
  rw [val_main_v77_apply, val_main_v76_apply, val_main_v75_apply, val_main_v74_apply]
  have e1 : idx_main_v74 (idx_main_v75 (ix3 r k e)) = ix2 r e := by
    funext a; match a with | ⟨0, _⟩ => rfl | ⟨1, _⟩ => rfl
  rw [e1, v73_apply]
  rfl

/-- The softmax denominator: the three shifted exponentials added up. -/
theorem v78_apply (r : Fin 1024) (e : Fin 512) :
    val_main_v78 (F := Ideal) x Wp bp Wq bq Wn bn (ix2 r e)
      = (Ideal.exp (gate x Wp bp r e - top (gate x Wp bp r e) (gate x Wq bq r e) (gate x Wn bn r e))
          + Ideal.exp (gate x Wq bq r e - top (gate x Wp bp r e) (gate x Wq bq r e) (gate x Wn bn r e)))
          + Ideal.exp (gate x Wn bn r e - top (gate x Wp bp r e) (gate x Wq bq r e) (gate x Wn bn r e)) := by
  rw [val_main_v78_apply, val_main_cst_14_apply]
  have e1 : ∀ k : Fin 3, idx_main_v78 (ix2 r e) k = ix3 r k e := fun k => by
    funext a; match a with | ⟨0, _⟩ => rfl | ⟨1, _⟩ => rfl | ⟨2, _⟩ => rfl
  simp only [e1, v77_apply]
  rw [Fin.sum_univ_three, v70_zero, v70_one, v70_two]
  show Ideal.ofBits .f32 0x00000000#32 + _ = _
  rw [Ideal.ofBits_zero_f32, zero_add]

/-- A normalised score at a position: its shifted exponential over the denominator. -/
theorem v81_apply (r : Fin 1024) (k : Fin 3) (e : Fin 512) :
    val_main_v81 (F := Ideal) x Wp bp Wq bq Wn bn (ix3 r k e)
      = Ideal.div (Ideal.exp (val_main_v70 (F := Ideal) x Wp bp Wq bq Wn bn (ix3 r k e)
          - top (gate x Wp bp r e) (gate x Wq bq r e) (gate x Wn bn r e)))
        ((Ideal.exp (gate x Wp bp r e - top (gate x Wp bp r e) (gate x Wq bq r e) (gate x Wn bn r e))
          + Ideal.exp (gate x Wq bq r e - top (gate x Wp bp r e) (gate x Wq bq r e) (gate x Wn bn r e)))
          + Ideal.exp (gate x Wn bn r e - top (gate x Wp bp r e) (gate x Wq bq r e) (gate x Wn bn r e))) := by
  rw [val_main_v81_apply, val_main_v80_apply, val_main_v79_apply, v77_apply]
  have e1 : idx_main_v79 (idx_main_v80 (ix3 r k e)) = ix2 r e := by
    funext a; match a with | ⟨0, _⟩ => rfl | ⟨1, _⟩ => rfl
  rw [e1, v78_apply]
  rfl

/-- The push share, spread over the slots. -/
theorem v85_apply (r : Fin 1024) (s : Fin 64) (e : Fin 512) :
    val_main_v85 (F := Ideal) x Wp bp Wq bq Wn bn (ix3 r s e)
      = share (gate x Wp bp r e) (gate x Wp bp r e) (gate x Wq bq r e) (gate x Wn bn r e) := by
  rw [val_main_v85_apply, val_main_v82_apply]
  have e1 : idx_main_v82 (idx_main_v85 (ix3 r s e)) = ix3 r (0 : Fin 3) e := by
    funext a; match a with | ⟨0, _⟩ => rfl | ⟨1, _⟩ => rfl | ⟨2, _⟩ => rfl
  rw [e1, v81_apply, v70_zero]
  rfl

/-- The pop share, spread over the slots. -/
theorem v87_apply (r : Fin 1024) (s : Fin 64) (e : Fin 512) :
    val_main_v87 (F := Ideal) x Wp bp Wq bq Wn bn (ix3 r s e)
      = share (gate x Wq bq r e) (gate x Wp bp r e) (gate x Wq bq r e) (gate x Wn bn r e) := by
  rw [val_main_v87_apply, val_main_v83_apply]
  have e1 : idx_main_v83 (idx_main_v87 (ix3 r s e)) = ix3 r (1 : Fin 3) e := by
    funext a; match a with | ⟨0, _⟩ => rfl | ⟨1, _⟩ => rfl | ⟨2, _⟩ => rfl
  rw [e1, v81_apply, v70_one]
  rfl

/-- The keep share, spread over the slots. -/
theorem v90_apply (r : Fin 1024) (s : Fin 64) (e : Fin 512) :
    val_main_v90 (F := Ideal) x Wp bp Wq bq Wn bn (ix3 r s e)
      = share (gate x Wn bn r e) (gate x Wp bp r e) (gate x Wq bq r e) (gate x Wn bn r e) := by
  rw [val_main_v90_apply, val_main_v84_apply]
  have e1 : idx_main_v84 (idx_main_v90 (ix3 r s e)) = ix3 r (2 : Fin 3) e := by
    funext a; match a with | ⟨0, _⟩ => rfl | ⟨1, _⟩ => rfl | ⟨2, _⟩ => rfl
  rw [e1, v81_apply, v70_two]
  rfl

/-! ## The result -/

/-- The reference's result at batch row `r`, slot `s`, feature `e` is the specification there: the reference
    multiplies each share into the decayed stack, the specification scales each share by the decay gate first
    (associativity); the pushed value's two factors are in the other order (commutativity); and at the last slot the
    popped column is the appended zero. No finiteness is used. -/
theorem result_eq (r : Fin 1024) (s : Fin 64) (e : Fin 512) :
    val_main_v92 (F := Ideal) x st Wg bg Wi bi Wd bd Wp bp Wq bq Wn bn (ix3 r s e)
      = G x st Wg bg Wi bi Wd bd Wp bp Wq bq Wn bn r s e := by
  have hs := s.isLt
  rw [val_main_v92_apply, val_main_v89_apply, val_main_v86_apply, val_main_v88_apply, val_main_v91_apply,
    v85_apply, v87_apply, v90_apply, v39_apply]
  simp only [Ideal.addf_def, Ideal.mulf_def]
  unfold G mix
  by_cases h0 : s.val = 0
  · rw [dif_pos h0, v37_zero x st Wg bg Wi bi Wd bd r s e h0,
      v38_lt x st Wg bg r s e (1 : Fin 64) (by show 1 = s.val + 1; omega)]
    obtain rfl : s = 0 := Fin.ext h0
    rw [mul_comm (gate x Wd bd r e) (gate x Wi bi r e)]
    simp only [mul_assoc]
  · rw [dif_neg h0]
    by_cases h63 : s.val = 63
    · rw [dif_pos h63, v37_succ x st Wg bg Wi bi Wd bd r s e (62 : Fin 64) (by show 62 + 1 = s.val; omega),
        v38_last x st Wg bg r s e h63]
      obtain rfl : s = 63 := Fin.ext h63
      simp only [mul_zero, add_zero, mul_assoc]
    · rw [dif_neg h63, v37_succ x st Wg bg Wi bi Wd bd r s e ⟨s.val - 1, by omega⟩ (by show s.val - 1 + 1 = s.val; omega),
        v38_lt x st Wg bg r s e ⟨s.val + 1, by omega⟩ rfl]
      simp only [mul_assoc]

/-- The same for the whole array. -/
theorem result_eq_fun :
    val_main_v92 (F := Ideal) x st Wg bg Wi bi Wd bd Wp bp Wq bq Wn bn
      = fun i => G x st Wg bg Wi bi Wd bd Wp bp Wq bq Wn bn (i 0) (i 1) (i 2) := by
  funext i
  exact (congrArg (val_main_v92 (F := Ideal) x st Wg bg Wi bi Wd bd Wp bp Wq bq Wn bn)
    (eq_ix3 (n0 := 1024) (n1 := 64) (n2 := 512) i)).trans
    (result_eq x st Wg bg Wi bi Wd bd Wp bp Wq bq Wn bn (i 0) (i 1) (i 2))

end Cert.ReferenceIdeal.RefValue

end
-- ==== Proof.lean ====
/-
  One step of a differentiable stack: a pipelined kernel over 32 batch blocks against its array-level reference.

  Both programs compute, for every batch row, stack slot and feature, the specification `Cert.StackStep.G`
  (Proof/Spec.lean): six logistic gates of affine forms of the input row, a softmax over three action scores, and
  the push / pop / keep mixture of neighbouring stack slots. The kernel evaluates the six affine forms by one matrix
  product against the six weight matrices transposed and concatenated, folds the decay gate into the three shares,
  and patches slot 0 and slot 63 with two row stores; the reference pads the decayed stack with a zero slot and
  shifts it by concatenation and slicing. On the extended reals the two agree by associativity and commutativity of
  the product, `x · 0 = 0`, and the spelled-out logistic `1 / (1 + exp (-z))`; no finiteness of the inputs is used.

  The frames of the two kernel programs are Proof/KernelFrame.lean and Proof/KernelIdealFrame.lean; the kernel's
  result array is read in Proof/KernelValue.lean over the block arithmetic of Proof/BlockValue.lean; the
  reference's result is read in Proof/RefValue.lean. The idealization rewrote nothing, so `preserves` is trivial.
-/
import proofs.«132333_j42477226557548_2_alg».proof.Defs
import proofs.«132333_j42477226557548_2_alg».proof.Proof.Gen.Kernel
import proofs.«132333_j42477226557548_2_alg».proof.Proof.Gen.Kernel.Skeleton
import proofs.«132333_j42477226557548_2_alg».proof.Proof.Gen.Kernel.Launch
import proofs.«132333_j42477226557548_2_alg».proof.Proof.Gen.Kernel.Points
import proofs.«132333_j42477226557548_2_alg».proof.Proof.Gen.KernelIdeal
import proofs.«132333_j42477226557548_2_alg».proof.Proof.Gen.KernelIdeal.Skeleton
import proofs.«132333_j42477226557548_2_alg».proof.Proof.Gen.KernelIdeal.Launch
import proofs.«132333_j42477226557548_2_alg».proof.Proof.Gen.KernelIdeal.Points
import proofs.«132333_j42477226557548_2_alg».proof.Proof.Gen.ReferenceIdeal
import proofs.«132333_j42477226557548_2_alg».proof.Proof.Gen.Pre_finite_inputs
import proofs.«132333_j42477226557548_2_alg».proof.Proof.Gen.ReferenceIdeal.Run
import proofs.«132333_j42477226557548_2_alg».proof.Proof.Gen.ReferenceIdeal.Read
import proofs.«132333_j42477226557548_2_alg».proof.Proof.KernelFrame
import proofs.«132333_j42477226557548_2_alg».proof.Proof.KernelIdealFrame
import proofs.«132333_j42477226557548_2_alg».proof.Proof.KernelValue
import proofs.«132333_j42477226557548_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Frame.frame m ρ

theorem frame_kernelIdeal : Cert.frame_KernelIdeal := fun m ρ _ => Cert.KernelIdeal.Frame.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the specification of the (agreeing) argument arrays in their result array. -/
theorem algebraic : Cert.algebraic_KernelIdeal_ReferenceIdeal := by
  intro m ρ m' ρ' _ hagree
  refine ⟨fun c => Cert.KernelIdeal.ArrayValue.Gm m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v92_eq, a0, a1, a2, a3, a4, a5, a6, a7, a8, a9, a10, a11, a12, a13,
    Cert.ReferenceIdeal.RefValue.result_eq_fun]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
